-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S2 .f32) (main_v13 : IVec S_ 1) (main_v16 : IVec S64x2 1) : IVec S_ 1 :=
  let main_c_5 : IVec S_ 1 := constantI S_ 1 1#1
  let main_v17 : IVec S_ 1 := (fun x v => Host.reduce IntOp.andi x v reducesTo_S64x2_S_d0_1 h_S_) main_v16 main_c_5
  let main_v18 : IVec S_ 1 := andi main_v13 main_v17
  let main_v19 : FVec F S2 .f32 := Host.absf main_arg6
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : IVec S100000 32) (main_arg3 : FVec F S128x64 .f32) (main_arg4 : FVec F S64 .f32) (main_arg5 : FVec F S64x2 .f32) (main_arg6 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x2 .f32 := Host.absf main_arg5
  let main_cst_4 : FVec F S_ .f32 := constant S_ .f32 0x7F800000#32
  let main_v15 : FVec F S64x2 .f32 := broadcastInDim S64x2 ![] bcast_S_S64x2 main_cst_4
  let main_v16 : IVec S64x2 1 := cmpf .olt main_v14 main_v15
  fn_part1 (F := F) main_arg6 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S1700000x64 : Shape := ⟨2, ![1700000, 64]⟩
abbrev S1x64 : Shape := ⟨2, ![1, 64]⟩
abbrev S256x64 : Shape := ⟨2, ![256, 64]⟩
abbrev S256 : Shape := ⟨1, ![256]⟩
abbrev S256x1 : Shape := ⟨2, ![256, 1]⟩
abbrev S256x2 : Shape := ⟨2, ![256, 2]⟩
abbrev S1x2 : Shape := ⟨2, ![1, 2]⟩

abbrev nBuf : Space → Nat
  | .hbm => 56
  | .vmem => 19
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x2, .f32⟩
  | .hbm, ⟨6, _⟩ => ⟨S2, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x64, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000x64, .f32⟩
  | .hbm, ⟨39, _⟩ => ⟨S_, .f32⟩
  | .hbm, ⟨40, _⟩ => ⟨S100000x64, .f32⟩
  | .hbm, ⟨41, _⟩ => ⟨S1700000x1, .i32⟩
  | .hbm, ⟨42, _⟩ => ⟨S100000x64, .f32⟩
  | .hbm, ⟨43, _⟩ => ⟨S100000x64, .f32⟩
  | .hbm, ⟨44, _⟩ => ⟨S_, .f32⟩
  | .hbm, ⟨45, _⟩ => ⟨S256x64, .f32⟩
  | .hbm, ⟨46, _⟩ => ⟨S100000x1, .i32⟩
  | .hbm, ⟨47, _⟩ => ⟨S256x64, .f32⟩
  | .hbm, ⟨48, _⟩ => ⟨S_, .f32⟩
  | .hbm, ⟨49, _⟩ => ⟨S100000, .f32⟩
  | .hbm, ⟨50, _⟩ => ⟨S_, .f32⟩
  | .hbm, ⟨51, _⟩ => ⟨S256, .f32⟩
  | .hbm, ⟨52, _⟩ => ⟨S100000x1, .i32⟩
  | .hbm, ⟨53, _⟩ => ⟨S256, .f32⟩
  | .hbm, ⟨54, _⟩ => ⟨S256x1, .f32⟩
  | .hbm, ⟨55, _⟩ => ⟨S256x2, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S64, .f32⟩
  | .local _ .vmem, ⟨12, _⟩ => ⟨S5000x64, .f32⟩
  | .local _ .vmem, ⟨13, _⟩ => ⟨S5000x64, .f32⟩
  | .local _ .vmem, ⟨14, _⟩ => ⟨S256x64, .f32⟩
  | .local _ .vmem, ⟨15, _⟩ => ⟨S256x1, .f32⟩
  | .local _ .vmem, ⟨16, _⟩ => ⟨S64x2, .f32⟩
  | .local _ .vmem, ⟨17, _⟩ => ⟨S2, .f32⟩
  | .local _ .vmem, ⟨18, _⟩ => ⟨S256x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem1_0 : DmaSem sig := 15
abbrev cc2_sem2_0 : DmaSem sig := 16
abbrev cc2_sem3_0 : DmaSem sig := 17
abbrev cc2_sem4_0 : DmaSem sig := 18

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S256x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S256x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  bcast_S_S256x64 : S_.BroadcastsInDim S256x64 (![] : Fin 0 → Fin S256x64.rank)
  bcast_S100000_S100000x1_0 : S100000.BroadcastsInDim S100000x1 (![0] : Fin 1 → Fin S100000x1.rank)
  bcast_S_S256 : S_.BroadcastsInDim S256 (![] : Fin 0 → Fin S256.rank)
  shapeCasts_S256_S256x1 : S256.ShapeCasts S256x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  broadcasts_S256x1_S256x64 : S256x1.Broadcasts S256x64
  inb_S64x2_S64x2_0_0 : ∀ a, (![0, 0] : Fin 2 → Nat) a + S64x2.size a ≤ S64x2.size a
  h_S64x2 : 0 < S64x2.numel
  inb_S2_S2_0 : ∀ a, (![0] : Fin 1 → Nat) a + S2.size a ≤ S2.size a
  h_S2 : 0 < S2.numel
  shapeCasts_S2_S1x2 : S2.ShapeCasts S1x2
  broadcasts_S1x2_S256x2 : S1x2.Broadcasts S256x2
  reduces_S256x2_S256 : S256x2.Reduces [1] S256
  broadcasts_S256x1_S256x2 : S256x1.Broadcasts S256x2
  inb_S256x2_S256x2_0_0 : ∀ a, (![0, 0] : Fin 2 → Nat) a + S256x2.size a ≤ S256x2.size a
  h_S256x2 : 0 < S256x2.numel
  scatter_S100000_S1700000x1_S1700000_n_0_0_1_wf : ScatterDims.WF S100000 S1700000x1 S1700000 [] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  dot_S256x64_S64x2_S256x2_1_0_0_1_n_n_wf : DotDims.WF S256x64 S64x2 S256x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S256x64.size a ≤ S256x64.size a
  hwx2_0 : ∀ i : grid2.Coords, EltTy.bits .f32 = 32 ∨ (Rect.block (s := S256x64) S256x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x1.size a ≤ S256x1.size a
  hwx2_1 : ∀ i : grid2.Coords, EltTy.bits .f32 = 32 ∨ (Rect.block (s := S256x1) S256x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x2.size a ≤ S64x2.size a
  hwx2_2 : ∀ i : grid2.Coords, EltTy.bits .f32 = 32 ∨ (Rect.block (s := S64x2) S64x2.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S2.size a ≤ S2.size a
  hwx2_3 : ∀ i : grid2.Coords, EltTy.bits .f32 = 32 ∨ (Rect.block (s := S2) S2.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x2.size a ≤ S256x2.size a
  hwx2_4 : ∀ i : grid2.Coords, EltTy.bits .f32 = 32 ∨ (Rect.block (s := S256x2) S256x2.size (cc2_transform_4 i) (hinb2_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x2_S256x2_1_0_0_1_n_n : DotDims S256x64 S64x2 S256x2 where
  lhsContracting := [1]
  rhsContracting := [0]
  lhsNonContracting := [0]
  rhsNonContracting := [1]
  lhsBatch := []
  rhsBatch := []
  wf := dot_S256x64_S64x2_S256x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v30) S256x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v35) S256x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S64x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v36) S256x2.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S256x64 : Shape := ⟨2, ![256, 64]⟩
abbrev S100000x1 : Shape := ⟨2, ![100000, 1]⟩
abbrev S256 : Shape := ⟨1, ![256]⟩
abbrev S256x1 : Shape := ⟨2, ![256, 1]⟩
abbrev S256x2 : Shape := ⟨2, ![256, 2]⟩
abbrev S1x2 : Shape := ⟨2, ![1, 2]⟩

abbrev nBuf : Space → Nat
  | .hbm => 105
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x2, .f32⟩
  | .hbm, ⟨6, _⟩ => ⟨S2, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x64, .f32⟩
  | .hbm, ⟨48, _⟩ => ⟨S1700000x1, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x64, .f32⟩
  | .hbm, ⟨58, _⟩ => ⟨S1700000x64, .f32⟩
  | .hbm, ⟨59, _⟩ => ⟨S1700000x64, .f32⟩
  | .hbm, ⟨60, _⟩ => ⟨S_, .f32⟩
  | .hbm, ⟨61, _⟩ => ⟨S100000x64, .f32⟩
  | .hbm, ⟨62, _⟩ => ⟨S1700000x1, .i32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S100000x64, .f32⟩
  | .hbm, ⟨67, _⟩ => ⟨S_, .f32⟩
  | .hbm, ⟨68, _⟩ => ⟨S100000x64, .f32⟩
  | .hbm, ⟨69, _⟩ => ⟨S100000x64, .f32⟩
  | .hbm, ⟨70, _⟩ => ⟨S_, .f32⟩
  | .hbm, ⟨71, _⟩ => ⟨S256x64, .f32⟩
  | .hbm, ⟨72, _⟩ => ⟨S100000x1, .i32⟩
  | .hbm, ⟨73, _⟩ => ⟨S256x64, .f32⟩
  | .hbm, ⟨74, _⟩ => ⟨S_, .f32⟩
  | .hbm, ⟨75, _⟩ => ⟨S100000, .f32⟩
  | .hbm, ⟨76, _⟩ => ⟨S_, .f32⟩
  | .hbm, ⟨77, _⟩ => ⟨S256, .f32⟩
  | .hbm, ⟨78, _⟩ => ⟨S100000x1, .i32⟩
  | .hbm, ⟨79, _⟩ => ⟨S256, .f32⟩
  | .hbm, ⟨80, _⟩ => ⟨S_, .f32⟩
  | .hbm, ⟨81, _⟩ => ⟨S256, .f32⟩
  | .hbm, ⟨82, _⟩ => ⟨S256, .f32⟩
  | .hbm, ⟨83, _⟩ => ⟨S256x1, .f32⟩
  | .hbm, ⟨84, _⟩ => ⟨S256x64, .f32⟩
  | .hbm, ⟨85, _⟩ => ⟨S256x64, .f32⟩
  | .hbm, ⟨86, _⟩ => ⟨S256x2, .f32⟩
  | .hbm, ⟨87, _⟩ => ⟨S1x2, .f32⟩
  | .hbm, ⟨88, _⟩ => ⟨S256x2, .f32⟩
  | .hbm, ⟨89, _⟩ => ⟨S256x2, .f32⟩
  | .hbm, ⟨90, _⟩ => ⟨S_, .f32⟩
  | .hbm, ⟨91, _⟩ => ⟨S256, .f32⟩
  | .hbm, ⟨92, _⟩ => ⟨S_, .f32⟩
  | .hbm, ⟨93, _⟩ => ⟨S256, .f32⟩
  | .hbm, ⟨94, _⟩ => ⟨S256, .f32⟩
  | .hbm, ⟨95, _⟩ => ⟨S256x1, .f32⟩
  | .hbm, ⟨96, _⟩ => ⟨S256x2, .f32⟩
  | .hbm, ⟨97, _⟩ => ⟨S256x2, .f32⟩
  | .hbm, ⟨98, _⟩ => ⟨S256x2, .f32⟩
  | .hbm, ⟨99, _⟩ => ⟨S_, .f32⟩
  | .hbm, ⟨100, _⟩ => ⟨S256, .f32⟩
  | .hbm, ⟨101, _⟩ => ⟨S256x1, .f32⟩
  | .hbm, ⟨102, _⟩ => ⟨S256x1, .f32⟩
  | .hbm, ⟨103, _⟩ => ⟨S256x2, .f32⟩
  | .hbm, ⟨104, _⟩ => ⟨S256x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_cst_11 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_12 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_call2_cst : Ref sig .tc := ⟨.hbm, 90, rfl⟩
abbrev main_call2_v0 : Ref sig .tc := ⟨.hbm, 91, rfl⟩
abbrev main_call2_cst_0 : Ref sig .tc := ⟨.hbm, 92, rfl⟩
abbrev main_call2_v1 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_call2_v5 : Ref sig .tc := ⟨.hbm, 97, rfl⟩
abbrev main_call2_v6 : Ref sig .tc := ⟨.hbm, 98, rfl⟩
abbrev main_call2_cst_1 : Ref sig .tc := ⟨.hbm, 99, rfl⟩
abbrev main_call2_v7 : Ref sig .tc := ⟨.hbm, 100, rfl⟩
abbrev main_call2_v8 : Ref sig .tc := ⟨.hbm, 101, rfl⟩
abbrev main_call2_v9 : Ref sig .tc := ⟨.hbm, 102, rfl⟩
abbrev main_call2_v10 : Ref sig .tc := ⟨.hbm, 103, rfl⟩
abbrev main_v64 : Ref sig .tc := ⟨.hbm, 104, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S256x64 : S_.BroadcastsInDim S256x64 (![] : Fin 0 → Fin S256x64.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S2_S1x2_1 : S2.BroadcastsInDim S1x2 (![1] : Fin 1 → Fin S1x2.rank)
  bcast_S1x2_S256x2_0_1 : S1x2.BroadcastsInDim S256x2 (![0, 1] : Fin 2 → Fin S256x2.rank)
  reducesTo_S256x2_S256_d1 : S256x2.ReducesTo [1] S256
  h_S_ : 0 < S_.numel
  bcast_S256x1_S256x2_0_1 : S256x1.BroadcastsInDim S256x2 (![0, 1] : Fin 2 → Fin S256x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  dot_S256x64_S64x2_S256x2_1_0_0_1_n_n_wf : DotDims.WF S256x64 S64x2 S256x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x2_S256x2_1_0_0_1_n_n : DotDims S256x64 S64x2 S256x2 where
  lhsContracting := [1]
  rhsContracting := [0]
  lhsNonContracting := [0]
  rhsNonContracting := [1]
  lhsBatch := []
  rhsBatch := []
  wf := dot_S256x64_S64x2_S256x2_1_0_0_1_n_n_wf

class Facts : Prop extends Facts₀ where

variable [Facts]
-- ==== Proof.ResultRun.lean ====
/-
  The idealized kernel's run with its result named.

  The program is three kernel launches among stretches of host operations. Between consecutive segments the
  contents of every buffer are known: after a stretch of host operations they are the stretch's operations applied,
  in order, to the contents before it; after a launch the arrays its windows write hold what the launch's grid
  points wrote back, and every other buffer is as before. Folding these steps from the memory at launch gives the
  contents at the return, and every weakly fair execution ends in a state whose memory agrees with that fold on every
  buffer that outlives the call. Read at the seven argument arrays this says they end unchanged; read at the result
  array it says the result is the fold's last contents of that array, which the value lemmas then compute.
-/
import proofs.«119991_j80178449482414_2_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents of the result array at the return: the last step of the fold of the program's segments over the
    memory at launch, read at the result array. -/
abbrev resultAtReturn (c : Dev nD) : Buf (Elt F) ((c.tc : Thread nD τ).loc main_v36) :=
  W8 m ρ c (Proc.devRef .tc main_v36)

set_option backward.isDefEq.respectTransparency.types false in
/-- From any memory with zero counters, every weakly fair execution of the program terminates without a fault; in its
    final state the result array holds `resultAtReturn` and each of the seven argument arrays holds what it held at
    launch. -/
theorem run : θ_run defs (onTc (τ := τ) (main (F := F))) ⟨m, fun _ => 0, ρ⟩ (fun r => ∀ c : Dev nD,
      r.2.mem ((c.tc : Thread nD τ).loc main_v36) = resultAtReturn m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v36 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.ResultRun

end
-- ==== Proof.Blocks.lean ====
/-
  Where the three launches read and write.

  The first two launches walk 20 grid points; at point t every row-blocked window holds rows 5000·t … 5000·t + 4999
  of its array (all columns), and the windows over the small operands (the first weights, the first bias) hold the
  whole operand at every point. The third launch has one grid point and every window holds its whole array. So an
  entry (p, k) of a row-blocked window's block at point t is the array's entry (5000·t + p, k), an entry of a
  whole-operand window's block is the operand's entry at the same place, and the 20 output blocks of 5000 rows tile
  the 100000 rows: row r lies in the block of point r / 5000.
-/
import proofs.«119991_j80178449482414_2_alg».proof.Proof.Gen.KernelIdeal.Frame
import Idealize.ShloMosaic.Lib.ValueIdx
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat Cfg Window)

variable {F : FTy → Type} [FloatOps F]
variable (V : (c : Dev nD) → (b : Ref sig .tc) → Buf (Elt F) ((c : Thread nD τ).loc b))

/-! ## The first launch -/

/-- At point t the row-blocked windows are at block (t, 0) and the first weights' window at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem lt20_0 (t : Fin cfg0.N) : t.val < 20 := lt_of_lt_of_eq t.isLt N_0

/-- Row 5000·t + p of an array of 100000 rows. -/
def row0 (t : Fin cfg0.N) (p : Fin 5000) : Fin 100000 :=
  ⟨t.val * 5000 + p.val, by have := lt20_0 t; have := p.isLt; omega⟩

/-- The features' block at point t, entry (p, k): the features' entry (5000·t + p, k). -/
theorem read0_0 (c : Dev nD) (t : Fin cfg0.N) (p : Fin 5000) (k : Fin 128) :
    iblk0 V c 0 t (ix2 p k) = V c main_arg0 (ix2 (row0 t p) k) := by
  obtain ⟨e0, e1, -⟩ := idx_facts0 t
  show V c main_arg0 (((cfg0.win 0).blk t).view.emb (ix2 p k)) = _
  refine congrArg _ ?_
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

/-- The first weights' block at any point is the first weights. -/
theorem read0_1 (c : Dev nD) (t : Fin cfg0.N) (k : Fin 128) (q : Fin 64) :
    iblk0 V c 1 t (ix2 k q) = V c main_arg3 (ix2 k q) := by
  obtain ⟨-, -, e2, e3, -⟩ := idx_facts0 t
  show V c main_arg3 (((cfg0.win 1).blk t).view.emb (ix2 k q)) = _
  refine congrArg _ ?_
  funext a; apply Fin.ext
  match a with
  | ⟨0, _⟩ => show win0_1.index t (0 : Fin 2) * 128 + 1 * k.val = k.val; omega
  | ⟨1, _⟩ => show win0_1.index t (1 : Fin 2) * 64 + 1 * q.val = q.val; omega

/-- The weights column's block at point t, entry (p, 0): the column's entry (5000·t + p, 0). -/
theorem read0_2 (c : Dev nD) (t : Fin cfg0.N) (p : Fin 5000) (u : Fin 1) :
    iblk0 V c 2 t (ix2 p u) = V c main_v15 (ix2 (row0 t p) u) := by
  obtain ⟨-, -, -, -, e4, e5, -⟩ := idx_facts0 t
  show V c main_v15 (((cfg0.win 2).blk t).view.emb (ix2 p u)) = _
  refine congrArg _ ?_
  funext a; apply Fin.ext
  match a with
  | ⟨0, _⟩ => show win0_2.index t (0 : Fin 2) * 5000 + 1 * p.val = t.val * 5000 + p.val; omega
  | ⟨1, _⟩ => show win0_2.index t (1 : Fin 2) * 1 + 1 * u.val = u.val; omega

/-- Entry (p, q) of the output's block at point t sits at (5000·t + p, q) of the output array. -/
theorem emb0_3 (t : Fin cfg0.N) (p : Fin 5000) (q : Fin 64) :
    ((cfg0.win 3).blk t).view.emb (ix2 p q) = ix2 (row0 t p) q := by
  obtain ⟨-, -, -, -, -, -, e6, e7⟩ := idx_facts0 t
  funext a; apply Fin.ext
  match a with
  | ⟨0, _⟩ => show win0_3.index t (0 : Fin 2) * 5000 + 1 * p.val = t.val * 5000 + p.val; omega
  | ⟨1, _⟩ => show win0_3.index t (1 : Fin 2) * 64 + 1 * q.val = q.val; omega

/-- An index of the output array is in point t's block iff each coordinate is in the block's range on its axis. -/
theorem mem_blk0_3 (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v16).slice (win0_3.rect t)).set ↔ _
  rw [View.set_slice_whole, Rect.mem_set_unit]
  exact Iff.rfl

/-- The 20 blocks of 5000 rows tile the output array: row r is in the block of point r / 5000. -/
theorem covered0_3 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : (i 0).val / 5000 < cfg0.N := by rw [show cfg0.N = 20 from N_0]; omega
  obtain ⟨-, -, -, -, -, -, e6, e7⟩ := idx_facts0 ⟨(i 0).val / 5000, hN⟩
  refine ⟨⟨(i 0).val / 5000, hN⟩, flush0_3 _, ?_⟩
  rw [mem_blk0_3]
  intro a
  match a with
  | ⟨0, _⟩ =>
    show win0_3.index ⟨(i 0).val / 5000, hN⟩ (0 : Fin 2) * 5000 ≤ (i 0).val
      ∧ (i 0).val < win0_3.index ⟨(i 0).val / 5000, hN⟩ (0 : Fin 2) * 5000 + 5000
    rw [e6]; show (i 0).val / 5000 * 5000 ≤ (i 0).val ∧ (i 0).val < (i 0).val / 5000 * 5000 + 5000; omega
  | ⟨1, _⟩ =>
    show win0_3.index ⟨(i 0).val / 5000, hN⟩ (1 : Fin 2) * 64 ≤ (i 1).val
      ∧ (i 1).val < win0_3.index ⟨(i 0).val / 5000, hN⟩ (1 : Fin 2) * 64 + 64
    rw [e7]; omega

/-! ## The second launch -/

/-- At point t the row-blocked windows are at block (t, 0) and the first bias' window at block (0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

theorem lt20_1 (t : Fin cfg1.N) : t.val < 20 := lt_of_lt_of_eq t.isLt N_1

/-- Row 5000·t + p of an array of 100000 rows. -/
def row1 (t : Fin cfg1.N) (p : Fin 5000) : Fin 100000 :=
  ⟨t.val * 5000 + p.val, by have := lt20_1 t; have := p.isLt; omega⟩

/-- The edge sums' block at point t, entry (p, q): the sums' entry (5000·t + p, q). -/
theorem read1_0 (c : Dev nD) (t : Fin cfg1.N) (p : Fin 5000) (q : Fin 64) :
    iblk1 V c 0 t (ix2 p q) = V c main_v26 (ix2 (row1 t p) q) := by
  obtain ⟨e0, e1, -⟩ := idx_facts1 t
  show V c main_v26 (((cfg1.win 0).blk t).view.emb (ix2 p q)) = _
  refine congrArg _ ?_
  funext a; apply Fin.ext
  match a with
  | ⟨0, _⟩ => show win1_0.index t (0 : Fin 2) * 5000 + 1 * p.val = t.val * 5000 + p.val; omega
  | ⟨1, _⟩ => show win1_0.index t (1 : Fin 2) * 64 + 1 * q.val = q.val; omega

/-- The weights column's block at point t, entry (p, 0): the column's entry (5000·t + p, 0). -/
theorem read1_1 (c : Dev nD) (t : Fin cfg1.N) (p : Fin 5000) (u : Fin 1) :
    iblk1 V c 1 t (ix2 p u) = V c main_v15 (ix2 (row1 t p) u) := by
  obtain ⟨-, -, e2, e3, -⟩ := idx_facts1 t
  show V c main_v15 (((cfg1.win 1).blk t).view.emb (ix2 p u)) = _
  refine congrArg _ ?_
  funext a; apply Fin.ext
  match a with
  | ⟨0, _⟩ => show win1_1.index t (0 : Fin 2) * 5000 + 1 * p.val = t.val * 5000 + p.val; omega
  | ⟨1, _⟩ => show win1_1.index t (1 : Fin 2) * 1 + 1 * u.val = u.val; omega

/-- The first bias' block at any point is the first bias. -/
theorem read1_2 (c : Dev nD) (t : Fin cfg1.N) (q : Fin 64) :
    iblk1 V c 2 t (ix1 q) = V c main_arg4 (ix1 q) := by
  obtain ⟨-, -, -, -, e4, -⟩ := idx_facts1 t
  show V c main_arg4 (((cfg1.win 2).blk t).view.emb (ix1 q)) = _
  refine congrArg _ ?_
  funext a; apply Fin.ext
  match a with
  | ⟨0, _⟩ => show win1_2.index t (0 : Fin 1) * 64 + 1 * q.val = q.val; omega

/-- Entry (p, q) of the output's block at point t sits at (5000·t + p, q) of the output array. -/
theorem emb1_3 (t : Fin cfg1.N) (p : Fin 5000) (q : Fin 64) :
    ((cfg1.win 3).blk t).view.emb (ix2 p q) = ix2 (row1 t p) q := by
  obtain ⟨-, -, -, -, -, e5, e6⟩ := idx_facts1 t
  funext a; apply Fin.ext
  match a with
  | ⟨0, _⟩ => show win1_3.index t (0 : Fin 2) * 5000 + 1 * p.val = t.val * 5000 + p.val; omega
  | ⟨1, _⟩ => show win1_3.index t (1 : Fin 2) * 64 + 1 * q.val = q.val; omega

theorem mem_blk1_3 (t : Fin cfg1.N) (i : S100000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v27).slice (win1_3.rect t)).set ↔ _
  rw [View.set_slice_whole, Rect.mem_set_unit]
  exact Iff.rfl

/-- The 20 blocks of 5000 rows tile the output array: row r is in the block of point r / 5000. -/
theorem covered1_3 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : (i 0).val / 5000 < cfg1.N := by rw [show cfg1.N = 20 from N_1]; omega
  obtain ⟨-, -, -, -, -, e5, e6⟩ := idx_facts1 ⟨(i 0).val / 5000, hN⟩
  refine ⟨⟨(i 0).val / 5000, hN⟩, flush1_3 _, ?_⟩
  rw [mem_blk1_3]
  intro a
  match a with
  | ⟨0, _⟩ =>
    show win1_3.index ⟨(i 0).val / 5000, hN⟩ (0 : Fin 2) * 5000 ≤ (i 0).val
      ∧ (i 0).val < win1_3.index ⟨(i 0).val / 5000, hN⟩ (0 : Fin 2) * 5000 + 5000
    rw [e5]; show (i 0).val / 5000 * 5000 ≤ (i 0).val ∧ (i 0).val < (i 0).val / 5000 * 5000 + 5000; omega
  | ⟨1, _⟩ =>
    show win1_3.index ⟨(i 0).val / 5000, hN⟩ (1 : Fin 2) * 64 ≤ (i 1).val
      ∧ (i 1).val < win1_3.index ⟨(i 0).val / 5000, hN⟩ (1 : Fin 2) * 64 + 64
    rw [e6]; omega

/-! ## The third launch: one point, every block a whole array -/

theorem idx_facts2 : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0 :=
  (by decide +kernel : ∀ t : Fin grid2.N, _)

theorem read2_0 (c : Dev nD) (t : Fin cfg2.N) (g : Fin 256) (k : Fin 64) :
    iblk2 V c 0 t (ix2 g k) = V c main_v30 (ix2 g k) := by
  obtain ⟨e0, e1, -⟩ := idx_facts2 t
  show V c main_v30 (((cfg2.win 0).blk t).view.emb (ix2 g k)) = _
  refine congrArg _ ?_
  funext a; apply Fin.ext
  match a with
  | ⟨0, _⟩ => show win2_0.index t (0 : Fin 2) * 256 + 1 * g.val = g.val; omega
  | ⟨1, _⟩ => show win2_0.index t (1 : Fin 2) * 64 + 1 * k.val = k.val; omega

theorem read2_1 (c : Dev nD) (t : Fin cfg2.N) (g : Fin 256) (u : Fin 1) :
    iblk2 V c 1 t (ix2 g u) = V c main_v35 (ix2 g u) := by
  obtain ⟨-, -, e2, e3, -⟩ := idx_facts2 t
  show V c main_v35 (((cfg2.win 1).blk t).view.emb (ix2 g u)) = _
  refine congrArg _ ?_
  funext a; apply Fin.ext
  match a with
  | ⟨0, _⟩ => show win2_1.index t (0 : Fin 2) * 256 + 1 * g.val = g.val; omega
  | ⟨1, _⟩ => show win2_1.index t (1 : Fin 2) * 1 + 1 * u.val = u.val; omega

theorem read2_2 (c : Dev nD) (t : Fin cfg2.N) (k : Fin 64) (u : Fin 2) :
    iblk2 V c 2 t (ix2 k u) = V c main_arg5 (ix2 k u) := by
  obtain ⟨-, -, -, -, e4, e5, -⟩ := idx_facts2 t
  show V c main_arg5 (((cfg2.win 2).blk t).view.emb (ix2 k u)) = _
  refine congrArg _ ?_
  funext a; apply Fin.ext
  match a with
  | ⟨0, _⟩ => show win2_2.index t (0 : Fin 2) * 64 + 1 * k.val = k.val; omega
  | ⟨1, _⟩ => show win2_2.index t (1 : Fin 2) * 2 + 1 * u.val = u.val; omega

theorem read2_3 (c : Dev nD) (t : Fin cfg2.N) (u : Fin 2) :
    iblk2 V c 3 t (ix1 u) = V c main_arg6 (ix1 u) := by
  obtain ⟨-, -, -, -, -, -, e6, -⟩ := idx_facts2 t
  show V c main_arg6 (((cfg2.win 3).blk t).view.emb (ix1 u)) = _
  refine congrArg _ ?_
  funext a; apply Fin.ext
  match a with
  | ⟨0, _⟩ => show win2_3.index t (0 : Fin 1) * 2 + 1 * u.val = u.val; omega

theorem emb2_4 (t : Fin cfg2.N) (g : Fin 256) (u : Fin 2) :
    ((cfg2.win 4).blk t).view.emb (ix2 g u) = ix2 g u := by
  obtain ⟨-, -, -, -, -, -, -, e7, e8⟩ := idx_facts2 t
  funext a; apply Fin.ext
  match a with
  | ⟨0, _⟩ => show win2_4.index t (0 : Fin 2) * 256 + 1 * g.val = g.val; omega
  | ⟨1, _⟩ => show win2_4.index t (1 : Fin 2) * 2 + 1 * u.val = u.val; omega

theorem mem_blk2_4 (t : Fin cfg2.N) (i : S256x2.Idx) :
    i ∈ ((cfg2.win 4).blk t).view.set ↔ ∀ a : Fin 2, win2_4.index t a * S256x2.size a ≤ (i a).val
      ∧ (i a).val < win2_4.index t a * S256x2.size a + S256x2.size a := by
  show i ∈ ((View.whole main_v36).slice (win2_4.rect t)).set ↔ _
  rw [View.set_slice_whole, Rect.mem_set_unit]
  exact Iff.rfl

/-- The one block is the whole result array. -/
theorem covered2_4 (i : S256x2.Idx) :
    ∃ t : Fin cfg2.N, (cfg2.win 4).flush t = true ∧ i ∈ ((cfg2.win 4).blk t).view.set := by
  have hi0 : (i 0).val < 256 := (i 0).isLt
  have hi1 : (i 1).val < 2 := (i 1).isLt
  obtain ⟨-, -, -, -, -, -, -, e7, e8⟩ := idx_facts2 t2_0
  refine ⟨t2_0, flush2_4 _, ?_⟩
  rw [mem_blk2_4]
  intro a
  match a with
  | ⟨0, _⟩ =>
    show win2_4.index t2_0 (0 : Fin 2) * 256 ≤ (i 0).val ∧ (i 0).val < win2_4.index t2_0 (0 : Fin 2) * 256 + 256
    rw [e7]; omega
  | ⟨1, _⟩ =>
    show win2_4.index t2_0 (1 : Fin 2) * 2 ≤ (i 1).val ∧ (i 1).val < win2_4.index t2_0 (1 : Fin 2) * 2 + 2
    rw [e8]; omega

end Cert.KernelIdeal.Blocks

end
-- ==== Proof.LibDense.lean ====
/-
  General facts, at the exact instance (floats as extended reals), about the operations a dense layer and a row softmax
  are made of, each read at an index written by its coordinates:
  a matrix product into a zero accumulator is the sum over the contracted axis of the products of the row's and the
  column's entries; a vector cast to one row and broadcast down the rows is the vector at the column; a vector cast
  to one column and broadcast along the rows is the vector at the row; a sum and a maximum over the second axis of a
  matrix are the sum and the maximum of the row's entries.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibDense

open Idealize.ShloMosaic Idealize.ShloMosaic.ValueIdx

variable {α : Type} {M K N : Nat}

/-- A matrix product of an [M, K] by a [K, N] matrix into the zero accumulator, read at (p, q): the sum over the
    contracted coordinate k of x(p, k) · w(k, q). The four hypotheses say which operand coordinate each of the
    product's index maps takes from the output index and which from the contraction index. -/
theorem matmul_zero_rc {φ₁ φ₂ : FTy} (D : DotDims ⟨2, ![M, K]⟩ ⟨2, ![K, N]⟩ ⟨2, ![M, N]⟩) (hr : D.contr.rank = 1)
    (hs : D.contr.size ⟨0, by omega⟩ = K)
    (hl0 : ∀ (i : (⟨2, ![M, N]⟩ : Shape).Idx) (c : D.contr.Idx), (D.lhsIdx i c 0).val = (i 0).val)
    (hl1 : ∀ (i : (⟨2, ![M, N]⟩ : Shape).Idx) (c : D.contr.Idx), (D.lhsIdx i c 1).val = (c ⟨0, by omega⟩).val)
    (hr0 : ∀ (i : (⟨2, ![M, N]⟩ : Shape).Idx) (c : D.contr.Idx), (D.rhsIdx i c 0).val = (c ⟨0, by omega⟩).val)
    (hr1 : ∀ (i : (⟨2, ![M, N]⟩ : Shape).Idx) (c : D.contr.Idx), (D.rhsIdx i c 1).val = (i 1).val)
    (prec : Option ContractPrecision)
    (x : FVec Ideal ⟨2, ![M, K]⟩ φ₁) (w : FVec Ideal ⟨2, ![K, N]⟩ φ₂) (p : Fin M) (q : Fin N) :
    matmul D prec x w (constant ⟨2, ![M, N]⟩ .f32 0x00000000#32) (ix2 p q) = ∑ k : Fin K, x (ix2 p k) * w (ix2 k q) := by
  refine (Ideal.matmul_constant_zero_apply D prec x w (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- An [N] vector cast to one row [1, N] and broadcast to [M, N] reads, at (p, q), the vector at q. -/
theorem rowBroadcast_rc (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (p : Fin M) (q : Fin N) :
    broadcastTo ⟨2, ![M, N]⟩ (shapeCast ⟨2, ![1, N]⟩ b h1) h2 (ix2 p q) = b (ix1 q) :=
  (broadcastTo_1b_ab_apply _ h2 p q).trans (shapeCast_a_1a_apply b h1 0 q)

/-- An [M] vector cast to one column [M, 1] reads, at (p, u), the vector at p. -/
theorem shapeCast_a_a1_apply (v : (⟨1, ![M]⟩ : Shape).Idx → α) (h : (⟨1, ![M]⟩ : Shape).ShapeCasts ⟨2, ![M, 1]⟩)
    (p : Fin M) (u : Fin 1) : shapeCast ⟨2, ![M, 1]⟩ v h (ix2 p u) = v (ix1 p) :=
  shapeCast_apply v h _ _ (by
    have hu : u.val = 0 := by omega
    rw [Shape.rowMajor_val_two, Shape.rowMajor_val_one]
    show p.val = p.val * 1 + u.val
    omega)

/-- An [M, 1] column cast to the [M] vector reads, at p, the column at (p, 0). -/
theorem shapeCast_a1_a_apply (v : (⟨2, ![M, 1]⟩ : Shape).Idx → α) (h : (⟨2, ![M, 1]⟩ : Shape).ShapeCasts ⟨1, ![M]⟩)
    (p : Fin M) : shapeCast ⟨1, ![M]⟩ v h (ix1 p) = v (ix2 p (0 : Fin 1)) :=
  shapeCast_apply v h _ _ (by
    rw [Shape.rowMajor_val_two, Shape.rowMajor_val_one]
    show p.val * 1 + 0 = p.val
    omega)

/-- An [M, 1] column broadcast along the rows to [M, N] reads, at (p, q), the column at (p, 0). -/
theorem broadcastTo_a1_ab_apply (v : (⟨2, ![M, 1]⟩ : Shape).Idx → α) (h : (⟨2, ![M, 1]⟩ : Shape).Broadcasts ⟨2, ![M, N]⟩)
    (p : Fin M) (q : Fin N) : broadcastTo ⟨2, ![M, N]⟩ v h (ix2 p q) = v (ix2 p (0 : Fin 1)) := by
  refine broadcastTo_apply v h (ix2 p q) (ix2 p (0 : Fin 1)) fun ax => ?_
  match ax with
  | ⟨0, _⟩ =>
    show p.val = if M = 1 then 0 else p.val
    split
    · have := p.isLt; omega
    · rfl
  | ⟨1, _⟩ => rfl

/-- An [M] vector cast to one column and broadcast along the rows to [M, N] reads, at (p, q), the vector at p. -/
theorem colBroadcast_rc (v : (⟨1, ![M]⟩ : Shape).Idx → α) (h1 : (⟨1, ![M]⟩ : Shape).ShapeCasts ⟨2, ![M, 1]⟩)
    (h2 : (⟨2, ![M, 1]⟩ : Shape).Broadcasts ⟨2, ![M, N]⟩) (p : Fin M) (q : Fin N) :
    broadcastTo ⟨2, ![M, N]⟩ (shapeCast ⟨2, ![M, 1]⟩ v h1) h2 (ix2 p q) = v (ix1 p) :=
  (broadcastTo_a1_ab_apply _ h2 p q).trans (shapeCast_a_a1_apply v h1 p 0)

/-- The index of an [M, N] matrix that drops to p when the second axis is reduced, with k put on that axis, is (p, k). -/
theorem lift_row (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- The sum over the second axis of an [M, N] matrix, read at row p: the sum of the row's entries. -/
theorem rowSum_apply (src : FVec Ideal ⟨2, ![M, N]⟩ .f32) (h : (⟨2, ![M, N]⟩ : Shape).Reduces [1] ⟨1, ![M]⟩)
    (hφ : FKind.Formats .f32) (hacc : (0x00000000#32 : BitVec 32) = 0x00000000#32) (p : Fin M) :
    multiReduction .add [1] ⟨1, ![M]⟩ src 0x00000000#32 h hφ hacc (ix1 p) = ∑ k : Fin N, src (ix2 p k) := by
  refine (Ideal.multiReduction_add_single src 0x00000000#32 h hφ hacc (ix1 p)).trans ?_
  exact Finset.sum_congr rfl fun k _ => congrArg src (lift_row h p k)

/-- The maximum over the second axis of an [M, N] matrix, read at row p: the fold of max, from minus infinity's
    pattern, over the row's entries. -/
theorem rowMax_apply (src : FVec Ideal ⟨2, ![M, N]⟩ .f32) (h : (⟨2, ![M, N]⟩ : Shape).Reduces [1] ⟨1, ![M]⟩)
    (hφ : FKind.Formats .f32) (hacc : (0xFF800000#32 : BitVec 32) = 0xFF800000#32) (p : Fin M) :
    multiReduction .maximumf [1] ⟨1, ![M]⟩ src 0xFF800000#32 h hφ hacc (ix1 p)
      = (Finset.univ : Finset (Fin N)).fold max (Ideal.ofBits .f32 0xFF800000#32) (fun k => src (ix2 p k)) := by
  refine (Ideal.multiReduction_maximumf_single src 0xFF800000#32 h hφ hacc (ix1 p)).trans ?_
  have e : (src ∘ h.lift (ix1 p)) = fun k => src (ix2 p k) := funext fun k => congrArg src (lift_row h p k)
  rw [e]
  rfl

/-- The host's reduction by maximum over the second axis of an [M, N] matrix, read at row p: the same fold, from the
    initial value's one element. -/
theorem hostRowMax_apply {u : Shape} (x : (⟨2, ![M, N]⟩ : Shape).Idx → EReal) (init : u.Idx → EReal)
    (h' : (⟨2, ![M, N]⟩ : Shape).ReducesTo [1] ⟨1, ![M]⟩) (h : (⟨2, ![M, N]⟩ : Shape).Reduces [1] ⟨1, ![M]⟩)
    (hu : 0 < u.numel) (p : Fin M) :
    Host.reduce (FloatOps.maximumf (F := Ideal) (φ := .f32)) x init h' hu (ix1 p)
      = (Finset.univ : Finset (Fin N)).fold max (init (Shape.Idx.first hu)) (fun k => x (ix2 p k)) := by
  refine (Host.reduce_eq_fold_single _ x init h' h hu (ix1 p)).trans ?_
  have e : (x ∘ h.lift (ix1 p)) = fun k => x (ix2 p k) := funext fun k => congrArg x (lift_row h p k)
  rw [e]
  rfl

/-! ## What a dense layer and a row softmax compute -/

/-- The f32 zero word's value (the rectifier's threshold and the sums' initial value). -/
abbrev zeroWord : EReal := Ideal.ofBits .f32 0x00000000#32

/-- Minus infinity's f32 word's value (the maximum's initial value). -/
abbrev negInfWord : EReal := Ideal.ofBits .f32 0xFF800000#32

/-- An affine map's entry: at (r, j), the sum over k of x(r, k) · w(k, j), plus b(j). -/
def affine (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => ∑ k : Fin K, x (ix2 (n0 := M) (n1 := K) ⟨(i 0).val, (i 0).isLt⟩ k) * w (ix2 (n0 := K) (n1 := N) k ⟨(i 1).val, (i 1).isLt⟩)
    + b (ix1 (n := N) ⟨(i 1).val, (i 1).isLt⟩)

theorem affine_apply (x : (⟨2, ![M, K]⟩ : Shape).Idx → EReal) (w : (⟨2, ![K, N]⟩ : Shape).Idx → EReal)
    (b : (⟨1, ![N]⟩ : Shape).Idx → EReal) (p : Fin M) (q : Fin N) :
    affine x w b (ix2 p q) = ∑ k : Fin K, x (ix2 p k) * w (ix2 k q) + b (ix1 q) := rfl

/-- One dense layer with the rectifier: the affine map's entry or the zero word's value, whichever is larger. -/
def layer (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => max (affine x w b i) zeroWord

theorem layer_apply (x : (⟨2, ![M, K]⟩ : Shape).Idx → EReal) (w : (⟨2, ![K, N]⟩ : Shape).Idx → EReal)
    (b : (⟨1, ![N]⟩ : Shape).Idx → EReal) (p : Fin M) (q : Fin N) :
    layer x w b (ix2 p q) = max (∑ k : Fin K, x (ix2 p k) * w (ix2 k q) + b (ix1 q)) zeroWord := rfl

/-- A row's largest logit as both programs take it: the fold of max from minus infinity's word over the row, once more
    against that word. -/
def rowTop (l : Fin N → EReal) : EReal := max negInfWord ((Finset.univ : Finset (Fin N)).fold max negInfWord l)

/-- A softmax row as both programs compute it: each logit less the row's largest, exponentiated, over the sum of those
    exponentials (the exact quotient of extended reals). -/
def softmaxRow (l : Fin N → EReal) (v : Fin N) : EReal :=
  Ideal.div (Ideal.exp (l v - rowTop l)) (∑ u : Fin N, Ideal.exp (l u - rowTop l))

end Cert.LibDense

end
-- ==== Proof.LibRowScatter.lean ====
/-
  General facts, at the exact instance (floats as extended reals), about a scatter-add of the ROWS of an [E, F] array
  of updates into an [N, F] array, the row each update row goes to read off an [E, 1] array of signed integers (what
  a segment sum over a list of receivers lowers to): read at (n, g), the result is the operand's entry plus the sum,
  over the update rows e whose integer is n, of the update's entry (e, g); an update row whose integer is negative or
  not below N contributes nothing. Then the law that lets such a sum pass through a matrix product with real
  entries: the rows' sum of (a term plus a row-by-column product) is the rows' sum of the terms plus the
  product of the rows' sum.
-/
import Idealize.ShloMosaic.PureOps.Ideal
import Idealize.ShloMosaic.PureOps.Ideal.Laws
import Idealize.ShloMosaic.PureOps.Contract
import Idealize.ShloMosaic.Lib.ValueIdx

noncomputable section

namespace Cert.LibRowScatter

open Idealize.ShloMosaic Idealize.ShloMosaic.ValueIdx

variable {N E F : Nat}

/-- The dimension numbers of a scatter of whole rows: the updates' second axis is the window, the operand's first
    axis is the one the integer addresses, and each update row has one integer. -/
abbrev rowDims (N E F : Nat) (wf : ScatterDims.WF ⟨2, ![N, F]⟩ ⟨2, ![E, 1]⟩ ⟨2, ![E, F]⟩ [1] [0] [0] 1) :
    ScatterDims ⟨2, ![N, F]⟩ ⟨2, ![E, 1]⟩ ⟨2, ![E, F]⟩ where
  updateWindowDims := [1]
  insertedWindowDims := [0]
  scatterDimsToOperandDims := [0]
  indexVectorDim := 1
  wf := wf

variable (wf : ScatterDims.WF ⟨2, ![N, F]⟩ ⟨2, ![E, 1]⟩ ⟨2, ![E, F]⟩ [1] [0] [0] 1)

/-- On the addressed axis the window starts at update row e's integer, read signed. -/
theorem start_row {w : Nat} (idx : IVec ⟨2, ![E, 1]⟩ w) (e : Fin E) (f : Fin F) :
    (rowDims N E F wf).start (ix2 e f) idx 0 = (idx (ix2 e (0 : Fin 1))).toInt := by
  unfold ScatterDims.start
  rw [dif_pos (show (0 : Fin 2) ∈ (rowDims N E F wf).scatterDimsToOperandDims from List.mem_singleton.mpr rfl)]
  have hsi : (rowDims N E F wf).siIdx (ix2 e f) ⟨List.idxOf (0 : Fin 2) (rowDims N E F wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the window's axis it starts at 0. -/
theorem start_col {w : Nat} (idx : IVec ⟨2, ![E, 1]⟩ w) (j : (⟨2, ![E, F]⟩ : Shape).Idx) :
    (rowDims N E F wf).start j idx 1 = 0 := by
  unfold ScatterDims.start
  rw [dif_neg (show ¬ (1 : Fin 2) ∈ ([0] : List (Fin 2)) by decide)]

/-- The window has no extent on the addressed axis … -/
theorem window_row (j : (⟨2, ![E, F]⟩ : Shape).Idx) : (rowDims N E F wf).window j 0 = 0 := by
  unfold ScatterDims.window
  have h : ¬ (0 : Fin 2) ∈ (rowDims N E F wf).sKept := by
    show ¬ (0 : Fin 2) ∈ ([1] : List (Fin 2))
    decide
  rw [dif_neg h]

/-- … and is the update's column on the other. -/
theorem window_col (e : Fin E) (f : Fin F) : (rowDims N E F wf).window (ix2 e f) 1 = f.val := by
  unfold ScatterDims.window
  have h : (1 : Fin 2) ∈ (rowDims N E F wf).sKept := by
    show (1 : Fin 2) ∈ ([1] : List (Fin 2))
    decide
  rw [dif_pos h]
  rfl

/-- WHERE AN UPDATE ENTRY LANDS: entry (e, f) lands on (n, g) exactly when row e's integer is n and f is g. -/
theorem lands_iff {w : Nat} (idx : IVec ⟨2, ![E, 1]⟩ w) (e : Fin E) (f : Fin F) (n : Fin N) (g : Fin F) :
    (rowDims N E F wf).resultIdx? (ix2 e f) idx = some (ix2 n g)
      ↔ (idx (ix2 e (0 : Fin 1))).toInt = (n.val : Int) ∧ f = g := by
  have h0 : (rowDims N E F wf).start (ix2 e f) idx 0 + ((rowDims N E F wf).window (ix2 e f) 0 : Int)
      = (idx (ix2 e (0 : Fin 1))).toInt := by
    rw [start_row, window_row]; simp
  have h1 : (rowDims N E F wf).start (ix2 e f) idx 1 + ((rowDims N E F wf).window (ix2 e f) 1 : Int) = (f.val : Int) := by
    rw [start_col, window_col]; simp
  unfold ScatterDims.resultIdx?
  split
  · rename_i h
    rw [Option.some.injEq]
    constructor
    · intro hfn
      have e0 := congrArg (fun i => (i 0).val) hfn
      have e1 := congrArg (fun i => (i 1).val) hfn
      have b0 := (h 0).1
      simp only [h0] at e0 b0
      simp only [h1] at e1
      refine ⟨?_, Fin.ext ?_⟩
      · have : ((idx (ix2 e (0 : Fin 1))).toInt.toNat : Int) = (n.val : Int) := by exact_mod_cast e0
        omega
      · have : ((f.val : Int)).toNat = g.val := e1
        omega
    · rintro ⟨hn, rfl⟩
      funext a
      refine Fin.ext ?_
      match a with
      | ⟨0, _⟩ =>
        show ((rowDims N E F wf).start (ix2 e f) idx 0 + ((rowDims N E F wf).window (ix2 e f) 0 : Int)).toNat = n.val
        rw [h0, hn]; simp
      | ⟨1, _⟩ =>
        show ((rowDims N E F wf).start (ix2 e f) idx 1 + ((rowDims N E F wf).window (ix2 e f) 1 : Int)).toNat = f.val
        rw [h1]; simp
  · rename_i h
    constructor
    · intro hc; exact absurd hc (by simp)
    · rintro ⟨hn, rfl⟩
      exfalso
      apply h
      intro a
      match a with
      | ⟨0, _⟩ =>
        show 0 ≤ (rowDims N E F wf).start (ix2 e f) idx 0 + ((rowDims N E F wf).window (ix2 e f) 0 : Int)
          ∧ (rowDims N E F wf).start (ix2 e f) idx 0 + ((rowDims N E F wf).window (ix2 e f) 0 : Int) < (N : Int)
        rw [h0, hn]
        have := n.isLt
        omega
      | ⟨1, _⟩ =>
        show 0 ≤ (rowDims N E F wf).start (ix2 e f) idx 1 + ((rowDims N E F wf).window (ix2 e f) 1 : Int)
          ∧ (rowDims N E F wf).start (ix2 e f) idx 1 + ((rowDims N E F wf).window (ix2 e f) 1 : Int) < (F : Int)
        rw [h1]
        have := f.isLt
        omega

/-- The update rows that land on operand row n: those whose integer, read signed, is n. -/
def rowsOn {w : Nat} (idx : IVec ⟨2, ![E, 1]⟩ w) (n : Fin N) : Finset (Fin E) :=
  Finset.univ.filter fun e => (idx (ix2 e (0 : Fin 1))).toInt = (n.val : Int)

/-- THE SCATTER-ADD OF ROWS READ AT (n, g): the operand's entry plus the sum of the entries (e, g) of the update rows
    e that land on row n. -/
theorem scatterAdd_rows_apply {φ : FTy} {w : Nat} (x : FVec Ideal ⟨2, ![N, F]⟩ φ) (idx : IVec ⟨2, ![E, 1]⟩ w)
    (upd : FVec Ideal ⟨2, ![E, F]⟩ φ) (n : Fin N) (g : Fin F) :
    Host.scatterAdd (F := Ideal) (rowDims N E F wf) x idx upd (ix2 n g)
      = x (ix2 n g) + ∑ e ∈ rowsOn idx n, upd (ix2 e g) := by
  show x (ix2 n g) + ∑ j ∈ Finset.univ.filter (fun j => (rowDims N E F wf).resultIdx? j idx = some (ix2 n g)), upd j = _
  congr 1
  unfold rowsOn
  rw [Finset.sum_filter, sum_idx2, Finset.sum_filter]
  refine Finset.sum_congr rfl fun e _ => ?_
  simp only [lands_iff wf idx e _ n g]
  by_cases hL : (idx (ix2 e (0 : Fin 1))).toInt = (n.val : Int)
  · simp only [hL, true_and, if_true]
    rw [Finset.sum_ite_eq' Finset.univ g (fun f => upd (ix2 e f))]
    simp
  · simp only [hL, false_and, if_false]
    exact Finset.sum_const_zero

/-! ## The law that passes a sum of rows through a product with real entries -/

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real entries times a real is the sum of the products. -/
theorem sum_mul_real {ι : Type*} (s : Finset ι) (f : ι → ℝ) (v : ℝ) :
    (∑ i ∈ s, (f i : EReal)) * (v : EReal) = ∑ i ∈ s, (f i : EReal) * (v : EReal) := by
  have h : ∀ i, (f i : EReal) * (v : EReal) = ((f i * v : ℝ) : EReal) := fun i => (EReal.coe_mul _ _).symm
  simp only [h]
  rw [← coe_sum, ← coe_sum, ← EReal.coe_mul, Finset.sum_mul]

/-- Over any finite set R of rows: the sum of (t e + ∑ k, a e k · v k) is the sum of the t e plus ∑ k, (the sum of
    the a e k) · v k, when a and v are real (t may be anything: only sums are regrouped on its side). -/
theorem sum_rows_through_product {ι κ : Type*} [Fintype κ] (R : Finset ι) (t : ι → EReal) (a : ι → κ → EReal)
    (v : κ → EReal) (ha : ∀ e k, ∃ r : ℝ, a e k = (r : EReal)) (hv : ∀ k, ∃ r : ℝ, v k = (r : EReal)) :
    ∑ e ∈ R, (t e + ∑ k, a e k * v k) = ∑ e ∈ R, t e + ∑ k, (∑ e ∈ R, a e k) * v k := by
  choose ra hra using ha
  choose rv hrv using hv
  rw [Finset.sum_add_distrib]
  congr 1
  rw [Finset.sum_comm]
  refine Finset.sum_congr rfl fun k _ => ?_
  simp only [hra, hrv]
  exact (sum_mul_real R (fun e => ra e k) (rv k)).symm

end Cert.LibRowScatter

end
-- ==== Proof.LibGatherRows.lean ====
/-
  General facts about a gather of whole ROWS of an [N, F] array, and of single entries of an [N] vector, the row each
  result row e reads taken from an [E, 1] array of signed integers (what indexing an array's first axis by a list of
  node numbers lowers to): read at (e, f), the result is the operand's entry (rowOf e, f), where rowOf e is row e's
  integer read signed and clamped into [0, N − 1], as the gather clamps every start index. The row function is the same
  for the matrix and for the vector: it depends on the integers only.
-/
import Idealize.ShloMosaic.PureOps.Ideal
import Idealize.ShloMosaic.PureOps.Contract
import Idealize.ShloMosaic.Lib.ValueIdx

noncomputable section

namespace Cert.LibGatherRows

open Idealize.ShloMosaic Idealize.ShloMosaic.ValueIdx

variable {α : Type} {N E F : Nat}

/-- The row that result row e reads: its integer, read signed, clamped into [0, N − 1]. -/
def rowOf (hN : 0 < N) {w : Nat} (idx : IVec ⟨2, ![E, 1]⟩ w) (e : Fin E) : Fin N :=
  ⟨min (idx (ix2 e (0 : Fin 1))).toInt.toNat (N - 1), by omega⟩

/-- An integer that is a node number is its own clamped row. -/
theorem rowOf_of_toInt (hN : 0 < N) {w : Nat} (idx : IVec ⟨2, ![E, 1]⟩ w) (e : Fin E) (n : Fin N)
    (h : (idx (ix2 e (0 : Fin 1))).toInt = (n.val : Int)) : rowOf hN idx e = n := by
  apply Fin.ext
  show min (idx (ix2 e (0 : Fin 1))).toInt.toNat (N - 1) = n.val
  rw [h]
  have := n.isLt
  simp only [Int.toNat_natCast]
  omega

/-! ## Rows of a matrix -/

/-- The dimension numbers of a gather of whole rows: the result's second axis is the row's, the operand's first axis is
    the one the integer addresses and is collapsed, each result row has one integer. -/
abbrev rowDims (N E F : Nat)
    (wf : GatherDims.WF ⟨2, ![N, F]⟩ ⟨2, ![E, 1]⟩ ⟨2, ![E, F]⟩ [1] [0] [] [0] [] 1 ![1, F]) :
    GatherDims ⟨2, ![N, F]⟩ ⟨2, ![E, 1]⟩ ⟨2, ![E, F]⟩ where
  offsetDims := [1]
  collapsedSliceDims := [0]
  operandBatchingDims := []
  startIndicesBatchingDims := []
  startIndexMap := [0]
  indexVectorDim := 1
  sliceSizes := ![1, F]
  wf := wf

/-- THE GATHER OF ROWS READ AT (e, f): the operand at (rowOf e, f). -/
theorem gather_rows_apply (hN : 0 < N) {w : Nat}
    (wf : GatherDims.WF ⟨2, ![N, F]⟩ ⟨2, ![E, 1]⟩ ⟨2, ![E, F]⟩ [1] [0] [] [0] [] 1 ![1, F])
    (x : (⟨2, ![N, F]⟩ : Shape).Idx → α) (idx : IVec ⟨2, ![E, 1]⟩ w) (e : Fin E) (f : Fin F) :
    Host.gather (rowDims N E F wf) x idx (ix2 e f) = x (ix2 (rowOf hN idx e) f) := by
  unfold Host.gather
  congr 1
  funext a
  refine Fin.ext ?_
  match a with
  | ⟨0, _⟩ =>
    show (rowDims N E F wf).start (ix2 e f) idx 0 + (rowDims N E F wf).batchCoord (ix2 e f) 0
      + (rowDims N E F wf).offCoord (ix2 e f) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E F wf).startIndexMap from List.mem_singleton.mpr rfl)]
    have hsi : (rowDims N E F wf).siIdx (ix2 e f) ⟨List.idxOf (0 : Fin 2) (rowDims N E F wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E F wf).start (ix2 e f) idx 1 + (rowDims N E F wf).batchCoord (ix2 e f) 1
      + (rowDims N E F wf).offCoord (ix2 e f) 1 = f.val
    rw [GatherDims.batchCoord_eq_zero _ _ _ List.not_mem_nil]
    unfold GatherDims.start
    rw [dif_neg (show ¬ (1 : Fin 2) ∈ ([0] : List (Fin 2)) by decide)]
    unfold GatherDims.offCoord
    have h : (1 : Fin 2) ∈ (rowDims N E F wf).sKept := by
      show (1 : Fin 2) ∈ ([1] : List (Fin 2))
      decide
    rw [dif_pos h]
    simp only [Nat.zero_add]
    rfl

/-! ## Entries of a vector -/

/-- The dimension numbers of a gather of single entries of a vector: no result axis is the slice's, the operand's one
    axis is addressed and collapsed, each result entry has one integer. -/
abbrev vecDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE GATHER OF ENTRIES READ AT e: the operand at rowOf e. -/
theorem gather_vec_apply (hN : 0 < N) {w : Nat}
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) = x (ix1 (rowOf hN idx e)) := by
  unfold Host.gather
  congr 1
  funext a
  obtain rfl : a = 0 := Subsingleton.elim _ _
  refine Fin.ext ?_
  show (vecDims N E wf).start (ix1 e) idx 0 + (vecDims N E wf).batchCoord (ix1 e) 0
    + (vecDims N E wf).offCoord (ix1 e) 0 = min (idx (ix2 e (0 : Fin 1))).toInt.toNat (N - 1)
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.LibGatherRows

end
-- ==== Proof.Formulas.lean ====
/-
  What the two programs compute, entry by entry, as functions on the extended reals.

  A graph has 100000 nodes with 128 features each and 1700000 directed edges (the last 100000 of them the nodes'
  self-loops). Edge e goes from its source node `src e` to the node whose number is the integer the edge list gives
  for e; an edge whose integer is not a node number reaches no node and contributes nowhere. A node's transformed
  features are `feat r h = Σ_k x(r, k) · w1(k, h)`. Each node n has a weight `dinv n` (the reciprocal square root of
  its in-degree); graph g of 256 has a node count `cnts g`; node n belongs to the graph whose number its integer gives.

  One program scales each node's transformed features by the node's own weight, sums them over the edges into a node,
  and scales the sum by the receiving node's weight; the other multiplies each edge's message by the product of the
  two ends' weights and sums. Both then add the bias, rectify, average over each graph's nodes, apply a second affine
  map to two classes and take the logarithm of the softmax of each graph's row — one as l − (m + log Σ exp(l − m)),
  the other as (l − m) − log Σ exp(l − m), m the row's largest entry.
-/
import Idealize.ShloMosaic.PureOps.Ideal.Laws
import Idealize.ShloMosaic.Lib.ValueIdx
import proofs.«119991_j80178449482414_2_alg».proof.Proof.LibDense
import proofs.«119991_j80178449482414_2_alg».proof.Proof.LibRowScatter
import proofs.«119991_j80178449482414_2_alg».proof.Proof.LibGatherRows

noncomputable section

namespace Cert.Gcn

open Idealize.ShloMosaic Idealize.ShloMosaic.ValueIdx

/-- The value of the f32 word of 0.0: the sums' initial value and the rectifier's threshold. -/
abbrev zeroW : EReal := Ideal.ofBits .f32 0x00000000#32
/-- The value of the f32 word of 1.0: the least divisor of a graph's mean. -/
abbrev oneW : EReal := Ideal.ofBits .f32 0x3F800000#32
/-- The value of the f32 word of minus infinity: the maximum's initial value. -/
abbrev negInfW : EReal := Ideal.ofBits .f32 0xFF800000#32

section
variable (x : (⟨2, ![100000, 128]⟩ : Shape).Idx → EReal) (w1 : (⟨2, ![128, 64]⟩ : Shape).Idx → EReal)
  (b1 : (⟨1, ![64]⟩ : Shape).Idx → EReal) (wfc : (⟨2, ![64, 2]⟩ : Shape).Idx → EReal)
  (bfc : (⟨1, ![2]⟩ : Shape).Idx → EReal)
  (dinv : (⟨1, ![100000]⟩ : Shape).Idx → EReal) (cnts : (⟨1, ![256]⟩ : Shape).Idx → EReal)
  (ridx cidx cidxw : IVec ⟨2, ![1700000, 1]⟩ 32) (bidx : IVec ⟨2, ![100000, 1]⟩ 32)

/-- Node r's transformed feature h: the row of x times the column of w1. -/
def feat (r : Fin 100000) (h : Fin 64) : EReal := ∑ k : Fin 128, x (ix2 r k) * w1 (ix2 k h)

/-- The node an integer column gives for edge e when it is used to read a node's row: the integer, clamped. -/
def nodeOf (idx : IVec ⟨2, ![1700000, 1]⟩ 32) (e : Fin 1700000) : Fin 100000 :=
  Cert.LibGatherRows.rowOf (N := 100000) (by norm_num) idx e

/-- The edges into node n: those whose integer in the receivers' column is n. -/
def edgesInto (n : Fin 100000) : Finset (Fin 1700000) := Cert.LibRowScatter.rowsOn (N := 100000) cidx n

/-- The nodes of graph g: those whose integer in the graphs' column is g. -/
def nodesOf (g : Fin 256) : Finset (Fin 100000) := Cert.LibRowScatter.rowsOn (N := 256) bidx g

/-! ### The program that scales before and after the sum -/

/-- The sum over the edges into n of the source's transformed feature times the source's weight. -/
def kAgg (n : Fin 100000) (h : Fin 64) : EReal :=
  zeroW + ∑ e ∈ edgesInto cidx n, feat x w1 (nodeOf ridx e) h * dinv (ix1 (nodeOf ridx e))

/-- Scaled by the receiver's weight, plus the bias, rectified. -/
def kHid (n : Fin 100000) (h : Fin 64) : EReal :=
  max (kAgg x w1 dinv ridx cidx n h * dinv (ix1 n) + b1 (ix1 h)) zeroW

/-! ### The program that weighs each edge's message -/

/-- The sum over the edges into n of (source's weight · receiver column's weight) · source's transformed feature. -/
def rAgg (n : Fin 100000) (h : Fin 64) : EReal :=
  zeroW + ∑ e ∈ edgesInto cidx n,
    (dinv (ix1 (nodeOf ridx e)) * dinv (ix1 (nodeOf cidxw e))) * feat x w1 (nodeOf ridx e) h

/-- Plus the bias, rectified. -/
def rHid (n : Fin 100000) (h : Fin 64) : EReal :=
  max (rAgg x w1 dinv ridx cidx cidxw n h + b1 (ix1 h)) zeroW

/-! ### Both: the graphs' means and the second affine map, of a given hidden layer `hid` -/

/-- The sum of the hidden layer over graph g's nodes. -/
def gSum (hid : Fin 100000 → Fin 64 → EReal) (g : Fin 256) (k : Fin 64) : EReal :=
  zeroW + ∑ n ∈ nodesOf bidx g, hid n k

/-- Graph g's mean: the sum over the larger of its node count and one. -/
def gMean (hid : Fin 100000 → Fin 64 → EReal) (g : Fin 256) (k : Fin 64) : EReal :=
  Ideal.div (gSum bidx hid g k) (max (cnts (ix1 g)) oneW)

/-- Graph g's two logits. -/
def logit (hid : Fin 100000 → Fin 64 → EReal) (g : Fin 256) (u : Fin 2) : EReal :=
  ∑ k : Fin 64, gMean cnts bidx hid g k * wfc (ix2 k u) + bfc (ix1 u)

end

/-! ### The two spellings of the logarithm of a row's softmax -/

/-- l u − (m + log Σ_v exp(l v − m)), m the fold of max over the row from minus infinity's word. -/
def kLogSoftmax (l : Fin 2 → EReal) (u : Fin 2) : EReal :=
  l u - ((Finset.univ : Finset (Fin 2)).fold max negInfW l
    + Ideal.log (∑ v : Fin 2, Ideal.exp (l v - (Finset.univ : Finset (Fin 2)).fold max negInfW l)))

/-- (l u − m) − log (0 + Σ_v exp(l v − m)), m that fold once more against minus infinity's word. -/
def rLogSoftmax (l : Fin 2 → EReal) (u : Fin 2) : EReal :=
  (l u - max negInfW ((Finset.univ : Finset (Fin 2)).fold max negInfW l))
    - Ideal.log (zeroW + ∑ v : Fin 2, Ideal.exp (l v - max negInfW ((Finset.univ : Finset (Fin 2)).fold max negInfW l)))

section
variable (x : (⟨2, ![100000, 128]⟩ : Shape).Idx → EReal) (w1 : (⟨2, ![128, 64]⟩ : Shape).Idx → EReal)
  (b1 : (⟨1, ![64]⟩ : Shape).Idx → EReal) (wfc : (⟨2, ![64, 2]⟩ : Shape).Idx → EReal)
  (bfc : (⟨1, ![2]⟩ : Shape).Idx → EReal)
  (dinv : (⟨1, ![100000]⟩ : Shape).Idx → EReal) (cnts : (⟨1, ![256]⟩ : Shape).Idx → EReal)
  (ridx cidx cidxw : IVec ⟨2, ![1700000, 1]⟩ 32) (bidx : IVec ⟨2, ![100000, 1]⟩ 32)

/-- THE FIRST PROGRAM'S RESULT, entry (g, u). -/
def KerG : (⟨2, ![256, 2]⟩ : Shape).Idx → EReal := fun i =>
  kLogSoftmax (logit wfc bfc cnts bidx (kHid x w1 b1 dinv ridx cidx) ⟨(i 0).val, (i 0).isLt⟩) ⟨(i 1).val, (i 1).isLt⟩

/-- THE SECOND PROGRAM'S RESULT, entry (g, u). -/
def RefG : (⟨2, ![256, 2]⟩ : Shape).Idx → EReal := fun i =>
  rLogSoftmax (logit wfc bfc cnts bidx (rHid x w1 b1 dinv ridx cidx cidxw) ⟨(i 0).val, (i 0).isLt⟩) ⟨(i 1).val, (i 1).isLt⟩

theorem KerG_apply (g : Fin 256) (u : Fin 2) :
    KerG x w1 b1 wfc bfc dinv cnts ridx cidx bidx (ix2 g u)
      = kLogSoftmax (logit wfc bfc cnts bidx (kHid x w1 b1 dinv ridx cidx) g) u := rfl

theorem RefG_apply (g : Fin 256) (u : Fin 2) :
    RefG x w1 b1 wfc bfc dinv cnts ridx cidx cidxw bidx (ix2 g u)
      = rLogSoftmax (logit wfc bfc cnts bidx (rHid x w1 b1 dinv ridx cidx cidxw) g) u := rfl

end

end Cert.Gcn

end
-- ==== Proof.RegionValues.lean ====
/-
  What each launch leaves in its output array, as one function of the arrays it reads.

  A launch's output array is written block by block, point t writing what the body computed from the point's input
  blocks. When that is block t of ONE function G of the whole input arrays, and the blocks tile the output, the array
  ends holding G. Here:
    * the first launch leaves, at (r, h), the transformed feature Σ_k x(r, k)·w(k, h) times the weight d(r, 0);
    * the second leaves, at (n, h), the larger of a(n, h)·d(n, 0) + b(h) and the zero word's value;
    * the third leaves, at (g, u), the logarithm of the softmax of graph g's two logits
      Σ_k (s(g, k) / max(c(g, 0), 1))·w(k, u) + b(u), taken as l − (m + log Σ exp(l − m)).
  Each statement is conditional on its body's arithmetic read at an entry (hp0, hp1, hp2).
-/
import proofs.«119991_j80178449482414_2_alg».proof.Proof.Blocks
import proofs.«119991_j80178449482414_2_alg».proof.Proof.Formulas

set_option maxRecDepth 16384

noncomputable section

namespace Cert.KernelIdeal.RegionValues

open Cert.KernelIdeal Cert.KernelIdeal.Gen Cert.KernelIdeal.Blocks
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- A row index and a column index of a matrix index. -/
abbrev r_ {M N : Nat} (i : (⟨2, ![M, N]⟩ : Shape).Idx) : Fin M := ⟨(i 0).val, (i 0).isLt⟩
abbrev c_ {M N : Nat} (i : (⟨2, ![M, N]⟩ : Shape).Idx) : Fin N := ⟨(i 1).val, (i 1).isLt⟩

/-! ## The first launch -/

/-- Transformed features scaled by the node's weight. -/
def G0 (x : S100000x128.Idx → EReal) (w : S128x64.Idx → EReal) (d : S100000x1.Idx → EReal) : S100000x64.Idx → EReal :=
  fun i => (∑ k : Fin 128, x (ix2 (r_ i) k) * w (ix2 k (c_ i))) * d (ix2 (r_ i) (0 : Fin 1))

theorem G0_apply (x : S100000x128.Idx → EReal) (w : S128x64.Idx → EReal) (d : S100000x1.Idx → EReal)
    (r : Fin 100000) (h : Fin 64) :
    G0 x w d (ix2 r h) = (∑ k : Fin 128, x (ix2 r k) * w (ix2 k h)) * d (ix2 r (0 : Fin 1)) := rfl

section
variable (hp0 : ∀ (v0 : Vec Ideal S5000x128 .f32) (v2 : Vec Ideal S128x64 .f32) (v5 : Vec Ideal S5000x1 .f32)
    (p : Fin 5000) (q : Fin 64),
    k0_pay1 (F := Ideal) v0 v2 v5 (ix2 p q) = (∑ k : Fin 128, v0 (ix2 p k) * v2 (ix2 k q)) * v5 (ix2 p (0 : Fin 1)))
include hp0

/-- What point t writes back is block t of G0 of the arrays as the launch finds them. -/
theorem flushed0_eq (c : Dev nD) (t : Fin cfg0.N) :
    (dat0 V c).flushed 3 t
      = ((cfg0.win 3).blk t).view.read (Elt Ideal) (G0 (V c main_arg0) (V c main_arg3) (V c main_v15)) := by
  show (cfg0.win 3).cut (grid0.coords t) ((dat0 V c).after 3 t) = _
  rw [after0_3]
  unfold out0_3
  rw [View.canon_unit_zero hz2]
  simp only [View.ld_unit_zero (S := S5000x128) hz2, View.ld_unit_zero (S := S128x64) hz2,
    View.ld_unit_zero (S := S5000x1) hz2]
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (iblk0 V c 2 t) (ix2 p q)
    = G0 (V c main_arg0) (V c main_arg3) (V c main_v15) (((cfg0.win 3).blk t).view.emb (ix2 p q))
  refine (hp0 _ _ _ p q).trans ?_
  rw [emb0_3, G0_apply, read0_2]
  refine congrArg (· * _) ?_
  refine Finset.sum_congr rfl fun k _ => ?_
  rw [read0_0, read0_1]

/-- The first launch's output array after the launch. -/
theorem final0 (c : Dev nD) :
    (dat0 V c).arrAt 3 cfg0.N = G0 (V c main_arg0) (V c main_arg3) (V c main_v15) :=
  (dat0 V c).arrAt_eq_of_cover 3 _ (fun t _ => flushed0_eq V hp0 c t) covered0_3
end

/-! ## The second launch -/

/-- Scaled by the node's weight, plus the bias, rectified. -/
def G1 (a : S100000x64.Idx → EReal) (d : S100000x1.Idx → EReal) (b : S64.Idx → EReal) : S100000x64.Idx → EReal :=
  fun i => max (a (ix2 (r_ i) (c_ i)) * d (ix2 (r_ i) (0 : Fin 1)) + b (ix1 (c_ i))) Cert.Gcn.zeroW

theorem G1_apply (a : S100000x64.Idx → EReal) (d : S100000x1.Idx → EReal) (b : S64.Idx → EReal)
    (n : Fin 100000) (h : Fin 64) :
    G1 a d b (ix2 n h) = max (a (ix2 n h) * d (ix2 n (0 : Fin 1)) + b (ix1 h)) Cert.Gcn.zeroW := rfl

section
variable (hp1 : ∀ (v0 : Vec Ideal S5000x64 .f32) (v2 : Vec Ideal S5000x1 .f32) (v6 : Vec Ideal S64 .f32)
    (p : Fin 5000) (q : Fin 64),
    k1_pay1 (F := Ideal) v0 v2 v6 (ix2 p q) = max (v0 (ix2 p q) * v2 (ix2 p (0 : Fin 1)) + v6 (ix1 q)) Cert.Gcn.zeroW)
include hp1

theorem flushed1_eq (c : Dev nD) (t : Fin cfg1.N) :
    (dat1 V c).flushed 3 t
      = ((cfg1.win 3).blk t).view.read (Elt Ideal) (G1 (V c main_v26) (V c main_v15) (V c main_arg4)) := by
  show (cfg1.win 3).cut (grid1.coords t) ((dat1 V c).after 3 t) = _
  rw [after1_3]
  unfold out1_3
  rw [View.canon_unit_zero hz2]
  simp only [View.ld_unit_zero (S := S5000x64) hz2, View.ld_unit_zero (S := S5000x1) hz2,
    View.ld_unit_zero (S := S64) hz1]
  funext j
  obtain ⟨p, q, rfl⟩ : ∃ (p : Fin 5000) (q : Fin 64), j = ix2 p q := ⟨j 0, j 1, eq_ix2 j⟩
  show k1_pay1 (F := Ideal) (iblk1 V c 0 t) (iblk1 V c 1 t) (iblk1 V c 2 t) (ix2 p q)
    = G1 (V c main_v26) (V c main_v15) (V c main_arg4) (((cfg1.win 3).blk t).view.emb (ix2 p q))
  refine (hp1 _ _ _ p q).trans ?_
  rw [emb1_3, G1_apply, read1_0, read1_1, read1_2]

/-- The second launch's output array after the launch. -/
theorem final1 (c : Dev nD) :
    (dat1 V c).arrAt 3 cfg1.N = G1 (V c main_v26) (V c main_v15) (V c main_arg4) :=
  (dat1 V c).arrAt_eq_of_cover 3 _ (fun t _ => flushed1_eq V hp1 c t) covered1_3
end

/-! ## The third launch -/

/-- The logarithm of the softmax of each graph's two logits. -/
def G2 (s : S256x64.Idx → EReal) (cn : S256x1.Idx → EReal) (w : S64x2.Idx → EReal) (b : S2.Idx → EReal) :
    S256x2.Idx → EReal :=
  fun i => Cert.Gcn.kLogSoftmax (fun v : Fin 2 => ∑ k : Fin 64,
      Ideal.div (s (ix2 (r_ i) k)) (max (cn (ix2 (r_ i) (0 : Fin 1))) Cert.Gcn.oneW) * w (ix2 k v) + b (ix1 v)) (c_ i)

theorem G2_apply (s : S256x64.Idx → EReal) (cn : S256x1.Idx → EReal) (w : S64x2.Idx → EReal) (b : S2.Idx → EReal)
    (g : Fin 256) (u : Fin 2) :
    G2 s cn w b (ix2 g u) = Cert.Gcn.kLogSoftmax (fun v : Fin 2 => ∑ k : Fin 64,
      Ideal.div (s (ix2 g k)) (max (cn (ix2 g (0 : Fin 1))) Cert.Gcn.oneW) * w (ix2 k v) + b (ix1 v)) u := rfl

section
variable (hp2 : ∀ (v0 : Vec Ideal S256x1 .f32) (v4 : Vec Ideal S256x64 .f32) (v9 : Vec Ideal S64x2 .f32)
    (v12 : Vec Ideal S2 .f32) (g : Fin 256) (u : Fin 2),
    k2_pay1 (F := Ideal) v0 v4 v9 v12 (ix2 g u)
      = Cert.Gcn.kLogSoftmax (fun w : Fin 2 => ∑ k : Fin 64,
          Ideal.div (v4 (ix2 g k)) (max (v0 (ix2 g (0 : Fin 1))) Cert.Gcn.oneW) * v9 (ix2 k w) + v12 (ix1 w)) u)
include hp2

theorem flushed2_eq (c : Dev nD) (t : Fin cfg2.N) :
    (dat2 V c).flushed 4 t
      = ((cfg2.win 4).blk t).view.read (Elt Ideal)
          (G2 (V c main_v30) (V c main_v35) (V c main_arg5) (V c main_arg6)) := by
  show (cfg2.win 4).cut (grid2.coords t) ((dat2 V c).after 4 t) = _
  rw [after2_4]
  unfold out2_4
  rw [View.canon_unit_zero hz2]
  simp only [View.ld_unit_zero (S := S256x1) hz2, View.ld_unit_zero (S := S256x64) hz2,
    View.ld_unit_zero (S := S64x2) hz2, View.ld_unit_zero (S := S2) hz1]
  funext j
  obtain ⟨g, u, rfl⟩ : ∃ (g : Fin 256) (u : Fin 2), j = ix2 g u := ⟨j 0, j 1, eq_ix2 j⟩
  show k2_pay1 (F := Ideal) (iblk2 V c 1 t) (iblk2 V c 0 t) (iblk2 V c 2 t) (iblk2 V c 3 t) (ix2 g u)
    = G2 (V c main_v30) (V c main_v35) (V c main_arg5) (V c main_arg6) (((cfg2.win 4).blk t).view.emb (ix2 g u))
  refine (hp2 _ _ _ _ g u).trans ?_
  rw [emb2_4, G2_apply, read2_1]
  refine congrArg (fun l => Cert.Gcn.kLogSoftmax l u) ?_
  funext v
  rw [read2_3]
  refine congrArg (· + _) ?_
  refine Finset.sum_congr rfl fun k _ => ?_
  rw [read2_0, read2_2]

/-- The result array after the third launch. -/
theorem final2 (c : Dev nD) :
    (dat2 V c).arrAt 4 cfg2.N = G2 (V c main_v30) (V c main_v35) (V c main_arg5) (V c main_arg6) :=
  (dat2 V c).arrAt_eq_of_cover 4 _ (fun t _ => flushed2_eq V hp2 c t) covered2_4
end

end Cert.KernelIdeal.RegionValues

end
-- ==== Proof.Payloads.lean ====
/-
  The three bodies' arithmetic, read at one entry of the block each stores, floats as extended reals.

  The first body multiplies a block of 5000 node rows by the 128-by-64 weight matrix and scales row p by the node's
  weight: entry (p, q) is (Σ_k x(p, k) · w(k, q)) · d(p). The second scales row p of the summed messages by the node's
  weight, adds the bias and rectifies: entry (p, q) is max(a(p, q) · d(p) + b(q), 0). The third divides graph g's row of
  sums by the larger of the graph's node count and one, applies the 64-by-2 affine map, and takes the logarithm of the
  row's softmax as l(u) − (m + log Σ_v exp(l(v) − m)), m the row's largest logit.

  Changing a number's format does nothing to an extended real, a cast to the same shape is the identity, a column
  broadcast along its rows repeats the row's one entry, and a vector broadcast down the rows repeats the column's entry.
-/
import proofs.«119991_j80178449482414_2_alg».proof.Proof.Gen.KernelIdeal.Skeleton
import proofs.«119991_j80178449482414_2_alg».proof.Proof.LibDense
import proofs.«119991_j80178449482414_2_alg».proof.Proof.Formulas

noncomputable section

namespace Cert.KernelIdeal.Payloads

open Cert.KernelIdeal Cert.KernelIdeal.Gen Idealize.ShloMosaic Idealize.ShloMosaic.ValueIdx

/-! ## The first body: the node rows times the weight matrix, each row scaled by its node's weight -/

/-- The 5000-by-128 block times the 128-by-64 matrix into the zero accumulator, at (p, q): Σ_k x(p, k) · w(k, q). -/
theorem product0_apply (x : FVec Ideal S5000x128 .bf16) (w : FVec Ideal S128x64 .bf16) (p : Fin 5000) (q : Fin 64) :
    matmul dot_S5000x128_S128x64_S5000x64_1_0_0_1_n_n none x w (constant (F := Ideal) S5000x64 .f32 0x00000000#32) (ix2 p q)
      = ∑ k : Fin 128, x (ix2 p k) * w (ix2 k q) :=
  Cert.LibDense.matmul_zero_rc (M := 5000) (K := 128) (N := 64) dot_S5000x128_S128x64_S5000x64_1_0_0_1_n_n rfl rfl
    (fun _ _ => rfl)
    (fun i c => dot_S5000x128_S128x64_S5000x64_1_0_0_1_n_n.lhsIdx_val_of_single (cl := 1) rfl i c)
    (fun i c => dot_S5000x128_S128x64_S5000x64_1_0_0_1_n_n.rhsIdx_val_of_single (cr := 0) rfl i c)
    (fun _ _ => rfl) none x w p q

theorem pay0_apply (v0 : Vec Ideal S5000x128 .f32) (v2 : Vec Ideal S128x64 .f32) (v5 : Vec Ideal S5000x1 .f32) (p : Fin 5000) (q : Fin 64) :
    k0_pay1 (F := Ideal) v0 v2 v5 (ix2 p q) = (∑ k : Fin 128, v0 (ix2 p k) * v2 (ix2 k q)) * v5 (ix2 p (0 : Fin 1)) := by
  unfold k0_pay1
  refine (mulf_apply _ _ _).trans ?_
  refine congrArg₂ (· * ·) ?_ ?_
  · exact product0_apply _ _ p q
  · exact (Cert.LibDense.broadcastTo_a1_ab_apply _ _ p q).trans (congrFun (shapeCast_self v5 _) _)

/-! ## The second body: scale by the node's weight, add the bias, rectify -/

theorem pay1_apply (v0 : Vec Ideal S5000x64 .f32) (v2 : Vec Ideal S5000x1 .f32) (v6 : Vec Ideal S64 .f32) (p : Fin 5000) (q : Fin 64) :
    k1_pay1 (F := Ideal) v0 v2 v6 (ix2 p q) = max (v0 (ix2 p q) * v2 (ix2 p (0 : Fin 1)) + v6 (ix1 q)) Cert.Gcn.zeroW := by
  unfold k1_pay1
  refine (maximumf_apply _ _ _).trans ?_
  refine congrArg₂ max ?_ rfl
  refine (addf_apply _ _ _).trans ?_
  refine congrArg₂ (· + ·) ?_ (Cert.LibDense.rowBroadcast_rc v6 _ _ p q)
  refine (mulf_apply _ _ _).trans ?_
  refine congrArg₂ (· * ·) ?_ ?_
  · exact congrFun (shapeCast_self v0 _) _
  · exact (Cert.LibDense.broadcastTo_a1_ab_apply _ _ p q).trans (congrFun (shapeCast_self v2 _) _)

/-! ## The third body: the graphs' means, the second affine map, the logarithm of each row's softmax -/

/-- The 256-by-64 matrix of means times the 64-by-2 matrix into the zero accumulator, at (g, w): Σ_k a(g, k) · c(k, w). -/
theorem product2_apply (a : FVec Ideal S256x64 .bf16) (c : FVec Ideal S64x2 .bf16) (g : Fin 256) (w : Fin 2) :
    matmul dot_S256x64_S64x2_S256x2_1_0_0_1_n_n none a c (constant (F := Ideal) S256x2 .f32 0x00000000#32) (ix2 g w)
      = ∑ k : Fin 64, a (ix2 g k) * c (ix2 k w) :=
  Cert.LibDense.matmul_zero_rc (M := 256) (K := 64) (N := 2) dot_S256x64_S64x2_S256x2_1_0_0_1_n_n rfl rfl
    (fun _ _ => rfl)
    (fun i c => dot_S256x64_S64x2_S256x2_1_0_0_1_n_n.lhsIdx_val_of_single (cl := 1) rfl i c)
    (fun i c => dot_S256x64_S64x2_S256x2_1_0_0_1_n_n.rhsIdx_val_of_single (cr := 0) rfl i c)
    (fun _ _ => rfl) none a c g w

/-- The graphs' logits as the third body forms them: each graph's row of sums over the larger of its node count and
    one, times the 64-by-2 matrix, plus the bias. -/
def logits (v0 : Vec Ideal S256x1 .f32) (v4 : Vec Ideal S256x64 .f32) (v9 : Vec Ideal S64x2 .f32) (v12 : Vec Ideal S2 .f32) :
    FVec Ideal S256x2 .f32 :=
  addf
    (matmul dot_S256x64_S64x2_S256x2_1_0_0_1_n_n none
      (truncf .bf16
        (divf (shapeCast S256x64 v4 shapeCasts_S256x64_S256x64)
          (broadcastTo S256x64
            (maximumf (shapeCast S256x1 v0 shapeCasts_S256x1_S256x1)
              (broadcast S256x1 (Scalar.ofBits (F := Ideal) .f32 0x3F800000#32)))
            broadcasts_S256x1_S256x64))
        bitsLt_bf16_f32)
      (truncf .bf16 v9 bitsLt_bf16_f32)
      (constant (F := Ideal) S256x2 .f32 0x00000000#32))
    (broadcastTo S256x2 (shapeCast S1x2 v12 shapeCasts_S2_S1x2) broadcasts_S1x2_S256x2)

/-- Logit (g, w): Σ_k (s(g, k) / max(n(g), 1)) · c(k, w) + b(w). -/
theorem logits_apply (v0 : Vec Ideal S256x1 .f32) (v4 : Vec Ideal S256x64 .f32) (v9 : Vec Ideal S64x2 .f32) (v12 : Vec Ideal S2 .f32)
    (g : Fin 256) (w : Fin 2) :
    logits v0 v4 v9 v12 (ix2 g w)
      = ∑ k : Fin 64, Ideal.div (v4 (ix2 g k)) (max (v0 (ix2 g (0 : Fin 1))) Cert.Gcn.oneW) * v9 (ix2 k w) + v12 (ix1 w) := by
  unfold logits
  refine (addf_apply _ _ _).trans ?_
  refine congrArg₂ (· + ·) ?_ (Cert.LibDense.rowBroadcast_rc v12 _ _ g w)
  refine (product2_apply _ _ g w).trans ?_
  refine Finset.sum_congr rfl fun k _ => ?_
  refine congrArg₂ (· * ·) ?_ rfl
  refine (divf_apply _ _ _).trans ?_
  refine congrArg₂ Ideal.div (congrFun (shapeCast_self v4 _) _) ?_
  refine (Cert.LibDense.broadcastTo_a1_ab_apply _ _ g k).trans ?_
  refine (maximumf_apply _ _ _).trans ?_
  exact congrArg₂ max (congrFun (shapeCast_self v0 _) _) rfl

/-- The logarithm of each row's softmax as the third body spells it, of a 256-by-2 matrix of logits: each logit less
    the sum of the row's largest entry and the logarithm of the row's sum of exponentials of the logits less that entry. -/
def rowLogSoftmax (L : FVec Ideal S256x2 .f32) : FVec Ideal S256x2 .f32 :=
  subf L
    (broadcastTo S256x2
      (addf
        (shapeCast S256x1
          (multiReduction (F := Ideal) .maximumf [1] S256 L 0xFF800000#32 reduces_S256x2_S256 (.inl rfl) rfl)
          shapeCasts_S256_S256x1)
        (log
          (shapeCast S256x1
            (multiReduction (F := Ideal) .add [1] S256
              (exp
                (subf L
                  (broadcastTo S256x2
                    (shapeCast S256x1
                      (multiReduction (F := Ideal) .maximumf [1] S256 L 0xFF800000#32 reduces_S256x2_S256 (.inl rfl) rfl)
                      shapeCasts_S256_S256x1)
                    broadcasts_S256x1_S256x2)))
              0x00000000#32 reduces_S256x2_S256 (.inl rfl) rfl)
            shapeCasts_S256_S256x1)))
      broadcasts_S256x1_S256x2)

/-- Row g's largest logit, kept as a column: the fold of max over the row from minus infinity's word. -/
theorem rowTop_apply (L : FVec Ideal S256x2 .f32) (g : Fin 256) (z : Fin 1) :
    shapeCast S256x1
        (multiReduction (F := Ideal) .maximumf [1] S256 L 0xFF800000#32 reduces_S256x2_S256 (.inl rfl) rfl)
        shapeCasts_S256_S256x1 (ix2 g z)
      = (Finset.univ : Finset (Fin 2)).fold max Cert.Gcn.negInfW (fun k => L (ix2 g k)) :=
  (Cert.LibDense.shapeCast_a_a1_apply _ _ g z).trans (Cert.LibDense.rowMax_apply L _ _ _ g)

/-- Entry (g, u) of that matrix is the logarithm of the softmax of row g at u. -/
theorem rowLogSoftmax_apply (L : FVec Ideal S256x2 .f32) (g : Fin 256) (u : Fin 2) :
    rowLogSoftmax L (ix2 g u) = Cert.Gcn.kLogSoftmax (fun w => L (ix2 g w)) u := by
  unfold rowLogSoftmax Cert.Gcn.kLogSoftmax
  refine (subf_apply _ _ _).trans ?_
  refine congrArg (fun t => L (ix2 g u) - t) ?_
  refine (Cert.LibDense.broadcastTo_a1_ab_apply _ _ g u).trans ?_
  refine (addf_apply _ _ _).trans ?_
  refine congrArg₂ (· + ·) (rowTop_apply L g 0) ?_
  refine congrArg Ideal.log ?_
  refine (Cert.LibDense.shapeCast_a_a1_apply _ _ g 0).trans ?_
  refine (Cert.LibDense.rowSum_apply _ _ _ _ g).trans ?_
  refine Finset.sum_congr rfl fun v _ => ?_
  refine congrArg Ideal.exp ?_
  refine (subf_apply _ _ _).trans ?_
  refine congrArg (fun t => L (ix2 g v) - t) ?_
  exact (Cert.LibDense.broadcastTo_a1_ab_apply _ _ g v).trans (rowTop_apply L g 0)

/-- The third body's stored value is the logarithm of the rows' softmax of the logits. -/
theorem pay2_eq (v0 : Vec Ideal S256x1 .f32) (v4 : Vec Ideal S256x64 .f32) (v9 : Vec Ideal S64x2 .f32) (v12 : Vec Ideal S2 .f32) :
    k2_pay1 (F := Ideal) v0 v4 v9 v12 = rowLogSoftmax (logits v0 v4 v9 v12) := rfl

theorem pay2_apply (v0 : Vec Ideal S256x1 .f32) (v4 : Vec Ideal S256x64 .f32) (v9 : Vec Ideal S64x2 .f32) (v12 : Vec Ideal S2 .f32) (g : Fin 256) (u : Fin 2) :
    k2_pay1 (F := Ideal) v0 v4 v9 v12 (ix2 g u)
      = Cert.Gcn.kLogSoftmax (fun w : Fin 2 => ∑ k : Fin 64, Ideal.div (v4 (ix2 g k)) (max (v0 (ix2 g (0 : Fin 1))) Cert.Gcn.oneW) * v9 (ix2 k w) + v12 (ix1 w)) u := by
  rw [pay2_eq]
  refine (rowLogSoftmax_apply _ g u).trans ?_
  exact congrArg (fun l => Cert.Gcn.kLogSoftmax l u) (funext fun w => logits_apply v0 v4 v9 v12 g w)

end Cert.KernelIdeal.Payloads

end
-- ==== Proof.Fold.lean ====
/-
  The result array at the return, as one term of the seven argument arrays.

  From the edge list the program first forms the sources and receivers of the 1700000 edges (the listed edges
  followed by the 100000 self-loops), each node's in-degree (one for every edge whose receiver integer is the node),
  and its weight: the reciprocal square root of the in-degree where that is positive, zero elsewhere. The first launch
  leaves the transformed features scaled by the node's weight; the program gathers the source's row for every edge
  (the source integer wrapped if negative and clamped) and adds the rows into the receivers; the second launch scales
  by the receiver's weight, adds the bias and rectifies; the program adds the rows into the nodes' graphs and counts
  each graph's nodes; the third launch divides, applies the second affine map and takes the logarithm of the softmax.
  Nothing between two steps touches what a later step reads: each argument and each intermediate array is carried
  unchanged to the step that uses it.
-/
import proofs.«119991_j80178449482414_2_alg».proof.Proof.ResultRun
import proofs.«119991_j80178449482414_2_alg».proof.Proof.RegionValues
import proofs.«119991_j80178449482414_2_alg».proof.Proof.Payloads
import Idealize.ShloMosaic.Lib.StableHlo.Run

set_option maxRecDepth 16384

noncomputable section

namespace Cert.KernelIdeal.Fold

open Cert.KernelIdeal Cert.KernelIdeal.Gen Cert.KernelIdeal.RegionValues Cert.KernelIdeal.Payloads
open Idealize.ShloMosaic Idealize.ShloMosaic.TcCoe Idealize.ShloMosaic.ValueIdx Idealize.SL.Sem
open Idealize.ShloMosaic.StableHlo
open Idealize.ShloMosaic.Pipeline (Dat Cfg Window)

/-! ## The program's arrays as terms of its arguments -/

/-- The edges' sources: the edge list's first row, then the nodes themselves (the self-loops). -/
def rowA (x1 : IVec S2x1600000 32) : IVec S1700000 32 :=
  concatenate S1700000 0
    [⟨S1600000, shapeCast S1600000 (extractStridedSlice S1x1600000 ![0, 0] x1 slices_S2x1600000_S1x1600000_0_0)
        shapeCasts_S1x1600000_S1600000⟩,
      ⟨S100000, iotaInDim S100000 32 0⟩]
    concatenates_S1600000_S100000_S1700000_d0

/-- The edges' receivers: the edge list's second row, then the nodes themselves. -/
def colA (x1 : IVec S2x1600000 32) : IVec S1700000 32 :=
  concatenate S1700000 0
    [⟨S1600000, shapeCast S1600000 (extractStridedSlice S1x1600000 ![1, 0] x1 slices_S2x1600000_S1x1600000_1_0)
        shapeCasts_S1x1600000_S1600000⟩,
      ⟨S100000, iotaInDim S100000 32 0⟩]
    concatenates_S1600000_S100000_S1700000_d0

/-- The receivers as a column: what the sums over edges are addressed by. -/
def cidxA (x1 : IVec S2x1600000 32) : IVec S1700000x1 32 :=
  broadcastInDim S1700000x1 ![0] bcast_S1700000_S1700000x1_0 (colA x1)

/-- The sources, a negative integer wrapped by the number of nodes, as a column: what the rows are gathered by. -/
def ridxA (x1 : IVec S2x1600000 32) : IVec S1700000x1 32 :=
  broadcastInDim S1700000x1 ![0] bcast_S1700000_S1700000x1_0
    (select (cmpi .slt (rowA x1) (broadcastInDim S1700000 ![] bcast_S_S1700000 (constantI S_ 32 0#32)))
      (addi (rowA x1) (broadcastInDim S1700000 ![] bcast_S_S1700000 (constantI S_ 32 100000#32))) (rowA x1))

/-- The in-degrees: one for every edge whose receiver integer is the node. -/
def degA (x1 : IVec S2x1600000 32) : FVec Ideal S100000 .f32 :=
  Host.scatterAdd (F := Ideal) scatter_S100000_S1700000x1_S1700000_n_0_0_1
    (broadcastInDim S100000 ![] bcast_S_S100000 (constant (F := Ideal) S_ .f32 0x00000000#32)) (cidxA x1)
    (broadcastInDim S1700000 ![] bcast_S_S1700000 (constant (F := Ideal) S_ .f32 0x3F800000#32))

/-- The nodes' weights: the reciprocal square root of a positive in-degree, zero elsewhere. -/
def dinvA (x1 : IVec S2x1600000 32) : FVec Ideal S100000 .f32 :=
  select (cmpf (F := Ideal) .ogt (degA x1)
      (broadcastInDim S100000 ![] bcast_S_S100000 (constant (F := Ideal) S_ .f32 0x00000000#32)))
    (Host.rsqrt (F := Ideal) (degA x1))
    (broadcastInDim S100000 ![] bcast_S_S100000 (id (constant (F := Ideal) S_ .f32 0x00000000#32)))

/-- The weights as a column. -/
def dcolA (x1 : IVec S2x1600000 32) : FVec Ideal S100000x1 .f32 :=
  shapeCast S100000x1 (dinvA x1) shapeCasts_S100000_S100000x1

/-- The nodes' graphs as a column. -/
def bidxA (x2 : IVec S100000 32) : IVec S100000x1 32 :=
  broadcastInDim S100000x1 ![0] bcast_S100000_S100000x1_0 x2

/-- Each graph's number of nodes. -/
def cntA (x2 : IVec S100000 32) : FVec Ideal S256 .f32 :=
  Host.scatterAdd (F := Ideal) scatter_S256_S100000x1_S100000_n_0_0_1
    (broadcastInDim S256 ![] bcast_S_S256 (constant (F := Ideal) S_ .f32 0x00000000#32)) (bidxA x2)
    (broadcastInDim S100000 ![] bcast_S_S100000 (constant (F := Ideal) S_ .f32 0x3F800000#32))

/-- The counts as a column. -/
def ccolA (x2 : IVec S100000 32) : FVec Ideal S256x1 .f32 :=
  shapeCast S256x1 (cntA x2) shapeCasts_S256_S256x1

section
variable (x0 : FVec Ideal S100000x128 .f32) (x1 : IVec S2x1600000 32) (x2 : IVec S100000 32)
  (x3 : FVec Ideal S128x64 .f32) (x4 : FVec Ideal S64 .f32) (x5 : FVec Ideal S64x2 .f32) (x6 : FVec Ideal S2 .f32)

/-- The sources' scaled transformed features summed into the receivers. -/
def aggA : FVec Ideal S100000x64 .f32 :=
  Host.scatterAdd (F := Ideal) scatter_S100000x64_S1700000x1_S1700000x64_1_0_0_1
    (broadcastInDim S100000x64 ![] bcast_S_S100000x64 (constant (F := Ideal) S_ .f32 0x00000000#32)) (cidxA x1)
    (Host.gather gather_S100000x64_S1700000x1_S1700000x64_1_0_n_n_0_1_164 (G0 x0 x3 (dcolA x1)) (ridxA x1))

/-- The hidden layer. -/
def hidA : FVec Ideal S100000x64 .f32 := G1 (aggA x0 x1 x3) (dcolA x1) x4

/-- The hidden layer summed over each graph's nodes. -/
def sumA : FVec Ideal S256x64 .f32 :=
  Host.scatterAdd (F := Ideal) scatter_S256x64_S100000x1_S100000x64_1_0_0_1
    (broadcastInDim S256x64 ![] bcast_S_S256x64 (constant (F := Ideal) S_ .f32 0x00000000#32)) (bidxA x2)
    (hidA x0 x1 x3 x4)

/-- THE RESULT as a term of the seven arguments. -/
def resA : FVec Ideal S256x2 .f32 := G2 (sumA x0 x1 x2 x3 x4) (ccolA x2) x5 x6
end

/-! ## The walk through the program -/

variable (m : (ℓ : Loc nD τ sig) → Buf (Elt Ideal) ℓ) (ρ : Dev nD → PrngReg)

/-! ### At the first launch's exit -/

theorem w3_arg0 (c : Dev nD) : (V3 m ρ c main_arg0 : S100000x128.Idx → EReal) = m ((c : Thread nD τ).loc main_arg0) := by
  show StableHlo.after hostOps0_2 (W2 m ρ c) (Proc.devRef .tc main_arg0) = _
  after_results

theorem w3_arg3 (c : Dev nD) : (V3 m ρ c main_arg3 : S128x64.Idx → EReal) = m ((c : Thread nD τ).loc main_arg3) := by
  show StableHlo.after hostOps0_2 (W2 m ρ c) (Proc.devRef .tc main_arg3) = _
  after_results

/-- The last operation before the first launch makes a column of the weights' vector, whatever the contents before. -/
theorem column_step (W : Valuation τ sig (Elt Ideal)) :
    (StableHlo.after hostOps0_2 W (Proc.devRef .tc main_v15) : S100000x1.Idx → EReal)
      = shapeCast S100000x1 (W (Proc.devRef .tc main_v14) : S100000.Idx → EReal) shapeCasts_S100000_S100000x1 := by
  after_results; rfl

/-- The three operations before it choose, entry by entry, between the reciprocal square roots and zero. -/
theorem choice_step (W : Valuation τ sig (Elt Ideal)) :
    (StableHlo.after hostOps0_1 W (Proc.devRef .tc main_v14) : S100000.Idx → EReal)
      = select (W (Proc.devRef .tc main_v12) : S100000.Idx → BitVec 1) (W (Proc.devRef .tc main_v13) : S100000.Idx → EReal)
          (broadcastInDim S100000 ![] bcast_S_S100000 (id (W (Proc.devRef .tc main_cst_2) : S_.Idx → EReal))) := by
  after_results; rfl

theorem w1_v12 (c : Dev nD) : (W1 m ρ c (Proc.devRef .tc main_v12) : S100000.Idx → BitVec 1)
    = cmpf (F := Ideal) .ogt (degA (m ((c : Thread nD τ).loc main_arg1)))
        (broadcastInDim S100000 ![] bcast_S_S100000 (constant (F := Ideal) S_ .f32 0x00000000#32)) := by
  show StableHlo.after hostOps0 (W0 m ρ c) (Proc.devRef .tc main_v12) = _
  after_results; rfl

theorem w1_v13 (c : Dev nD) : (W1 m ρ c (Proc.devRef .tc main_v13) : S100000.Idx → EReal)
    = Host.rsqrt (F := Ideal) (degA (m ((c : Thread nD τ).loc main_arg1))) := by
  show StableHlo.after hostOps0 (W0 m ρ c) (Proc.devRef .tc main_v13) = _
  after_results; rfl

theorem w1_cst2 (c : Dev nD) : (W1 m ρ c (Proc.devRef .tc main_cst_2) : S_.Idx → EReal)
    = constant (F := Ideal) S_ .f32 0x00000000#32 := by
  show StableHlo.after hostOps0 (W0 m ρ c) (Proc.devRef .tc main_cst_2) = _
  after_results

theorem w3_v15 (c : Dev nD) : (V3 m ρ c main_v15 : S100000x1.Idx → EReal) = dcolA (m ((c : Thread nD τ).loc main_arg1)) := by
  refine (column_step (W2 m ρ c)).trans ?_
  unfold dcolA
  refine congrArg (fun v => shapeCast S100000x1 v shapeCasts_S100000_S100000x1) ?_
  refine (choice_step (W1 m ρ c)).trans ?_
  unfold dinvA
  rw [w1_v12, w1_v13, w1_cst2]

theorem w4_v16 (c : Dev nD) : (W4 m ρ c (Proc.devRef .tc main_v16) : S100000x64.Idx → EReal)
    = G0 (m ((c : Thread nD τ).loc main_arg0)) (m ((c : Thread nD τ).loc main_arg3)) (dcolA (m ((c : Thread nD τ).loc main_arg1))) := by
  refine (W4_arr m ρ c 3).trans ?_
  refine (final0 (V3 m ρ) pay0_apply c).trans ?_
  rw [w3_arg0, w3_arg3, w3_v15]

theorem w4_v3 (c : Dev nD) : (W4 m ρ c (Proc.devRef .tc main_v3) : S1700000.Idx → BitVec 32) = rowA (m ((c : Thread nD τ).loc main_arg1)) := by
  refine (W4_of_ne m ρ c main_v3 (by decide)).trans ?_
  show StableHlo.after hostOps0_2 (W2 m ρ c) (Proc.devRef .tc main_v3) = _
  after_results; rfl

theorem w4_v6 (c : Dev nD) : (W4 m ρ c (Proc.devRef .tc main_v6) : S1700000.Idx → BitVec 32) = colA (m ((c : Thread nD τ).loc main_arg1)) := by
  refine (W4_of_ne m ρ c main_v6 (by decide)).trans ?_
  show StableHlo.after hostOps0_2 (W2 m ρ c) (Proc.devRef .tc main_v6) = _
  after_results; rfl

theorem w4_v15 (c : Dev nD) : (W4 m ρ c (Proc.devRef .tc main_v15) : S100000x1.Idx → EReal) = dcolA (m ((c : Thread nD τ).loc main_arg1)) := by
  refine ((W4_arr m ρ c 2).trans (((dat0 (V3 m ρ) c).arrAt_in 2 rfl _).trans (A_eq0 (V3 m ρ) c 2))).trans ?_
  exact w3_v15 m ρ c

theorem w4_arg2 (c : Dev nD) : (W4 m ρ c (Proc.devRef .tc main_arg2) : S100000.Idx → BitVec 32) = m ((c : Thread nD τ).loc main_arg2) := by
  refine (W4_of_ne m ρ c main_arg2 (by decide)).trans ?_
  show StableHlo.after hostOps0_2 (W2 m ρ c) (Proc.devRef .tc main_arg2) = _
  after_results

theorem w4_arg4 (c : Dev nD) : (W4 m ρ c (Proc.devRef .tc main_arg4) : S64.Idx → EReal) = m ((c : Thread nD τ).loc main_arg4) := by
  refine (W4_of_ne m ρ c main_arg4 (by decide)).trans ?_
  show StableHlo.after hostOps0_2 (W2 m ρ c) (Proc.devRef .tc main_arg4) = _
  after_results

theorem w4_arg5 (c : Dev nD) : (W4 m ρ c (Proc.devRef .tc main_arg5) : S64x2.Idx → EReal) = m ((c : Thread nD τ).loc main_arg5) := by
  refine (W4_of_ne m ρ c main_arg5 (by decide)).trans ?_
  show StableHlo.after hostOps0_2 (W2 m ρ c) (Proc.devRef .tc main_arg5) = _
  after_results

theorem w4_arg6 (c : Dev nD) : (W4 m ρ c (Proc.devRef .tc main_arg6) : S2.Idx → EReal) = m ((c : Thread nD τ).loc main_arg6) := by
  refine (W4_of_ne m ρ c main_arg6 (by decide)).trans ?_
  show StableHlo.after hostOps0_2 (W2 m ρ c) (Proc.devRef .tc main_arg6) = _
  after_results

/-! ### At the second launch's exit -/

theorem w5_v26 (c : Dev nD) : (V5 m ρ c main_v26 : S100000x64.Idx → EReal)
    = aggA (m ((c : Thread nD τ).loc main_arg0)) (m ((c : Thread nD τ).loc main_arg1)) (m ((c : Thread nD τ).loc main_arg3)) := by
  show StableHlo.after hostOps1 (W4 m ρ c) (Proc.devRef .tc main_v26) = _
  after_results
  rw [w4_v16, w4_v3, w4_v6]
  rfl

theorem w5_v15 (c : Dev nD) : (V5 m ρ c main_v15 : S100000x1.Idx → EReal) = dcolA (m ((c : Thread nD τ).loc main_arg1)) := by
  show StableHlo.after hostOps1 (W4 m ρ c) (Proc.devRef .tc main_v15) = _
  after_results
  exact w4_v15 m ρ c

theorem w5_arg4 (c : Dev nD) : (V5 m ρ c main_arg4 : S64.Idx → EReal) = m ((c : Thread nD τ).loc main_arg4) := by
  show StableHlo.after hostOps1 (W4 m ρ c) (Proc.devRef .tc main_arg4) = _
  after_results
  exact w4_arg4 m ρ c

theorem w6_v27 (c : Dev nD) : (W6 m ρ c (Proc.devRef .tc main_v27) : S100000x64.Idx → EReal)
    = hidA (m ((c : Thread nD τ).loc main_arg0)) (m ((c : Thread nD τ).loc main_arg1)) (m ((c : Thread nD τ).loc main_arg3)) (m ((c : Thread nD τ).loc main_arg4)) := by
  refine (W6_arr m ρ c 3).trans ?_
  refine (final1 (V5 m ρ) pay1_apply c).trans ?_
  rw [w5_v26, w5_v15, w5_arg4]
  rfl

theorem w6_arg2 (c : Dev nD) : (W6 m ρ c (Proc.devRef .tc main_arg2) : S100000.Idx → BitVec 32) = m ((c : Thread nD τ).loc main_arg2) := by
  refine (W6_of_ne m ρ c main_arg2 (by decide)).trans ?_
  show StableHlo.after hostOps1 (W4 m ρ c) (Proc.devRef .tc main_arg2) = _
  after_results
  exact w4_arg2 m ρ c

theorem w6_arg5 (c : Dev nD) : (W6 m ρ c (Proc.devRef .tc main_arg5) : S64x2.Idx → EReal) = m ((c : Thread nD τ).loc main_arg5) := by
  refine (W6_of_ne m ρ c main_arg5 (by decide)).trans ?_
  show StableHlo.after hostOps1 (W4 m ρ c) (Proc.devRef .tc main_arg5) = _
  after_results
  exact w4_arg5 m ρ c

theorem w6_arg6 (c : Dev nD) : (W6 m ρ c (Proc.devRef .tc main_arg6) : S2.Idx → EReal) = m ((c : Thread nD τ).loc main_arg6) := by
  refine (W6_of_ne m ρ c main_arg6 (by decide)).trans ?_
  show StableHlo.after hostOps1 (W4 m ρ c) (Proc.devRef .tc main_arg6) = _
  after_results
  exact w4_arg6 m ρ c

/-! ### At the third launch's entry, and the result -/

theorem w7_v30 (c : Dev nD) : (V7 m ρ c main_v30 : S256x64.Idx → EReal)
    = sumA (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps2 (W6 m ρ c) (Proc.devRef .tc main_v30) = _
  after_results
  rw [w6_v27, w6_arg2]
  rfl

theorem w7_v35 (c : Dev nD) : (V7 m ρ c main_v35 : S256x1.Idx → EReal) = ccolA (m ((c : Thread nD τ).loc main_arg2)) := by
  show StableHlo.after hostOps2 (W6 m ρ c) (Proc.devRef .tc main_v35) = _
  after_results
  rw [w6_arg2]
  rfl

theorem w7_arg5 (c : Dev nD) : (V7 m ρ c main_arg5 : S64x2.Idx → EReal) = m ((c : Thread nD τ).loc main_arg5) := by
  show StableHlo.after hostOps2 (W6 m ρ c) (Proc.devRef .tc main_arg5) = _
  after_results
  exact w6_arg5 m ρ c

theorem w7_arg6 (c : Dev nD) : (V7 m ρ c main_arg6 : S2.Idx → EReal) = m ((c : Thread nD τ).loc main_arg6) := by
  show StableHlo.after hostOps2 (W6 m ρ c) (Proc.devRef .tc main_arg6) = _
  after_results
  exact w6_arg6 m ρ c

/-- THE RESULT ARRAY AT THE RETURN is `resA` of the arguments' contents at launch. -/
theorem result_eq (c : Dev nD) :
    Cert.KernelIdeal.ResultRun.resultAtReturn m ρ c
      = resA (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine (W8_arr m ρ c 4).trans ?_
  refine (final2 (V7 m ρ) pay2_apply c).trans ?_
  rw [w7_v30, w7_v35, w7_arg5, w7_arg6]
  rfl

end Cert.KernelIdeal.Fold

end
-- ==== Proof.KernelValue.lean ====
/-
  The result term, read entry by entry, is the first closed formula.

  A sum of rows into receivers, read at (n, h), is the zero word's value plus the sum over the edges into n of the
  gathered row's entry h; the gathered row of edge e is the row of its source node; the first launch's array at
  (r, h) is the transformed feature times the node's weight. So the edge sums are `kAgg`, the second launch's array
  is `kHid`, its sum over a graph's nodes is `gSum`, and the third launch's array at (g, u) is the logarithm of the
  softmax of the row of logits of graph g: `KerG`.
-/
import proofs.«119991_j80178449482414_2_alg».proof.Proof.Fold
import proofs.«119991_j80178449482414_2_alg».proof.Proof.Formulas

set_option maxRecDepth 16384

noncomputable section

namespace Cert.KernelIdeal.KernelValue

open Cert.KernelIdeal Cert.KernelIdeal.Gen Cert.KernelIdeal.Fold Cert.KernelIdeal.RegionValues
open Idealize.ShloMosaic Idealize.ShloMosaic.ValueIdx

variable (x0 : FVec Ideal S100000x128 .f32) (x1 : IVec S2x1600000 32) (x2 : IVec S100000 32)
  (x3 : FVec Ideal S128x64 .f32) (x4 : FVec Ideal S64 .f32) (x5 : FVec Ideal S64x2 .f32) (x6 : FVec Ideal S2 .f32)

/-- The weights' column at (n, 0) is node n's weight. -/
theorem dcol_apply (n : Fin 100000) : dcolA x1 (ix2 n (0 : Fin 1)) = dinvA x1 (ix1 n) :=
  Cert.LibDense.shapeCast_a_a1_apply (dinvA x1) shapeCasts_S100000_S100000x1 n 0

/-- The counts' column at (g, 0) is graph g's node count. -/
theorem ccol_apply (g : Fin 256) : ccolA x2 (ix2 g (0 : Fin 1)) = cntA x2 (ix1 g) :=
  Cert.LibDense.shapeCast_a_a1_apply (cntA x2) shapeCasts_S256_S256x1 g 0

/-- The edge sums at (n, h). -/
theorem agg_apply (n : Fin 100000) (h : Fin 64) :
    aggA x0 x1 x3 (ix2 n h) = Cert.Gcn.kAgg x0 x3 (dinvA x1) (ridxA x1) (cidxA x1) n h := by
  unfold aggA Cert.Gcn.kAgg Cert.Gcn.edgesInto
  refine (Cert.LibRowScatter.scatterAdd_rows_apply (N := 100000) (E := 1700000) (F := 64)
    Facts₀.scatter_S100000x64_S1700000x1_S1700000x64_1_0_0_1_wf _ (cidxA x1) _ n h).trans ?_
  refine congrArg (Cert.Gcn.zeroW + ·) (Finset.sum_congr rfl fun e _ => ?_)
  refine (Cert.LibGatherRows.gather_rows_apply (N := 100000) (E := 1700000) (F := 64) (by norm_num)
    Facts₀.gather_S100000x64_S1700000x1_S1700000x64_1_0_n_n_0_1_164_wf _ (ridxA x1) e h).trans ?_
  rw [G0_apply, dcol_apply]
  rfl

/-- The hidden layer at (n, h). -/
theorem hid_apply (n : Fin 100000) (h : Fin 64) :
    hidA x0 x1 x3 x4 (ix2 n h) = Cert.Gcn.kHid x0 x3 x4 (dinvA x1) (ridxA x1) (cidxA x1) n h := by
  unfold hidA Cert.Gcn.kHid
  rw [G1_apply, agg_apply, dcol_apply]

/-- The graphs' sums at (g, k). -/
theorem sum_apply (g : Fin 256) (k : Fin 64) :
    sumA x0 x1 x2 x3 x4 (ix2 g k)
      = Cert.Gcn.gSum (bidxA x2) (Cert.Gcn.kHid x0 x3 x4 (dinvA x1) (ridxA x1) (cidxA x1)) g k := by
  unfold sumA Cert.Gcn.gSum Cert.Gcn.nodesOf
  refine (Cert.LibRowScatter.scatterAdd_rows_apply (N := 256) (E := 100000) (F := 64)
    Facts₀.scatter_S256x64_S100000x1_S100000x64_1_0_0_1_wf _ (bidxA x2) _ g k).trans ?_
  refine congrArg (Cert.Gcn.zeroW + ·) (Finset.sum_congr rfl fun n _ => ?_)
  exact hid_apply x0 x1 x3 x4 n k

/-- THE RESULT TERM IS THE FIRST CLOSED FORMULA of the arguments, the nodes' weights, the graphs' node counts and the
    three integer columns. -/
theorem resA_eq_KerG :
    resA x0 x1 x2 x3 x4 x5 x6
      = Cert.Gcn.KerG x0 x3 x4 x5 x6 (dinvA x1) (cntA x2) (ridxA x1) (cidxA x1) (bidxA x2) := by
  funext i
  obtain ⟨g, u, rfl⟩ : ∃ (g : Fin 256) (u : Fin 2), i = ix2 g u := ⟨i 0, i 1, eq_ix2 i⟩
  rw [Cert.Gcn.KerG_apply]
  unfold resA
  rw [G2_apply]
  refine congrArg (fun l => Cert.Gcn.kLogSoftmax l u) (funext fun v => ?_)
  unfold Cert.Gcn.logit Cert.Gcn.gMean
  refine congrArg (· + x6 (ix1 v)) (Finset.sum_congr rfl fun k _ => ?_)
  rw [sum_apply, ccol_apply]

end Cert.KernelIdeal.KernelValue

end
-- ==== Proof.LibRealEntries.lean ====
import Idealize.ShloMosaic.PureOps.Ideal
import Idealize.ShloMosaic.PureOps.Ideal.Laws
import Idealize.ShloMosaic.PureOps.Contract
import Idealize.ShloMosaic.PureOps.ShapeOps
import Idealize.ShloMosaic.PureOps.Vector
import Mathlib.Tactic

/-!
# Real entries are preserved by the host operations

An extended real is *real* when it is the coercion of a real number, that is, neither `⊤` nor
`⊥`. This file shows that the arithmetic of the extended reals keeps real values real (sums,
differences, products, finite sums, quotients by a nonzero real, reciprocal square roots of a
positive real), and lifts this, entry by entry, to vectors: each host operation whose result
entries are entries of its operands (re-indexings: gather, broadcast, reshape, concatenation,
slicing, selection), or sums and products of them (scatter-add, reduction, contraction,
entrywise arithmetic), sends vectors with real entries to a vector with real entries.
-/

noncomputable section

namespace Cert.Lib.RealEntries

open Idealize.ShloMosaic
open scoped BigOperators

/-- An extended real is real: the coercion of a real number. -/
def IsR (x : EReal) : Prop := ∃ r : ℝ, x = (r : EReal)

/-- Every entry of a vector of extended reals is real. -/
def AllR {S : Shape} (v : S.Idx → EReal) : Prop := ∀ i, IsR (v i)

/-! ### Scalars -/

theorem isR_coe (r : ℝ) : IsR (r : EReal) := ⟨r, rfl⟩

theorem isR_zero : IsR 0 := ⟨0, EReal.coe_zero.symm⟩

theorem isR_one : IsR 1 := ⟨1, EReal.coe_one.symm⟩

/-- A real value is neither infinity. -/
theorem IsR.ne_top {x : EReal} (hx : IsR x) : x ≠ ⊤ := by
  obtain ⟨a, rfl⟩ := hx; exact EReal.coe_ne_top a

theorem IsR.ne_bot {x : EReal} (hx : IsR x) : x ≠ ⊥ := by
  obtain ⟨a, rfl⟩ := hx; exact EReal.coe_ne_bot a

/-- An extended real that is neither infinity is real. -/
theorem isR_of_ne {x : EReal} (ht : x ≠ ⊤) (hb : x ≠ ⊥) : IsR x :=
  ⟨x.toReal, (EReal.coe_toReal ht hb).symm⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.neg {x : EReal} (hx : IsR x) : IsR (-x) := by
  obtain ⟨a, rfl⟩ := hx; exact ⟨-a, (EReal.coe_neg a).symm⟩

/-- A finite sum of real values is real. -/
theorem isR_sum {ι : Type*} (s : Finset ι) (f : ι → EReal) (h : ∀ i ∈ s, IsR (f i)) :
    IsR (∑ i ∈ s, f i) := by
  classical
  induction s using Finset.induction_on with
  | empty => rw [Finset.sum_empty]; exact isR_zero
  | insert a s ha ih =>
    rw [Finset.sum_insert ha]
    exact (h a (Finset.mem_insert_self a s)).add (ih (fun i hi => h i (Finset.mem_insert_of_mem hi)))

/-- A real value divided by a nonzero real number is real. -/
theorem isR_div {x : EReal} (hx : IsR x) {y : ℝ} (hy : y ≠ 0) : IsR (Ideal.div x (y : EReal)) := by
  rw [Ideal.div_coe hy]; exact hx.mul (isR_coe _)

/-- The reciprocal square root of a positive real number is real. -/
theorem isR_rsqrt {r : ℝ} (hr : 0 < r) : IsR (Ideal.rsqrt (r : EReal)) := by
  rw [Ideal.rsqrt_coe, if_neg (not_lt.2 hr.le), if_neg hr.ne']; exact isR_coe _

/-- A choice between two real values is real. -/
theorem isR_ite {c : Prop} [Decidable c] {x y : EReal} (hx : IsR x) (hy : IsR y) :
    IsR (if c then x else y) := by
  split
  · exact hx
  · exact hy

/-! ### Words -/

/-- The single-precision word `0x47C35000` denotes `100000 = (2²³ + 4411392) · 2⁻⁷`. -/
theorem ofBits_47C35000 : Ideal.ofBits .f32 0x47C35000#32 = ((100000 : ℝ) : EReal) := by
  simp [Ideal.ofBits, Ideal.ieee]
  rw [← EReal.coe_mul]
  norm_num

/-- The single-precision word `0x3F800000` denotes `1 = 2²³ · 2⁻²³`. -/
theorem ofBits_3F800000 : Ideal.ofBits .f32 0x3F800000#32 = 1 := by
  simp [Ideal.ofBits, Ideal.ieee]
  rw [← EReal.coe_mul, ← EReal.coe_one]
  norm_num

/-- The single-precision word `0x3727C5AC` denotes a positive real number,
    `(2²³ + 2606508) · 2⁻⁴⁰`. -/
theorem ofBits_3727C5AC : ∃ e : ℝ, 0 < e ∧ Ideal.ofBits .f32 0x3727C5AC#32 = (e : EReal) := by
  refine ⟨10995116 * (2 ^ 40)⁻¹, by positivity, ?_⟩
  simp [Ideal.ofBits, Ideal.ieee]

/-- The words above, and the zero word, denote real numbers. -/
theorem isR_ofBits_00000000 : IsR (Ideal.ofBits .f32 0x00000000#32) := by
  rw [Ideal.ofBits_zero_f32]; exact isR_zero

theorem isR_ofBits_47C35000 : IsR (Ideal.ofBits .f32 0x47C35000#32) := ⟨_, ofBits_47C35000⟩

theorem isR_ofBits_3F800000 : IsR (Ideal.ofBits .f32 0x3F800000#32) := by
  rw [ofBits_3F800000]; exact isR_one

theorem isR_ofBits_3727C5AC : IsR (Ideal.ofBits .f32 0x3727C5AC#32) := by
  obtain ⟨e, _, h⟩ := ofBits_3727C5AC; exact ⟨e, h⟩

/-! ### Vectors

Each statement is at the extended-real instance, for arbitrary shapes and dimension records. -/

/-- `gather` re-indexes its operand: every result entry is an operand entry. -/
theorem allR_gather {s si t : Shape} {w : Nat} (d : GatherDims s si t) (x : s.Idx → EReal)
    (idx : IVec si w) (hx : AllR x) : AllR (Host.gather d x idx) :=
  fun j => hx (d.operandIdx j idx)

/-- `scatter-add`: every result entry is an operand entry plus a finite sum of update entries. -/
theorem allR_scatterAdd {s si u : Shape} {φ : FTy} {w : Nat} (d : ScatterDims s si u)
    (x : FVec Ideal s φ) (idx : IVec si w) (upd : FVec Ideal u φ) (hx : AllR x) (hu : AllR upd) :
    AllR (Host.scatterAdd (F := Ideal) d x idx upd) := by
  intro i
  show IsR (x i + ∑ j ∈ Finset.univ.filter (fun j => d.resultIdx? j idx = some i), upd j)
  exact (hx i).add (isR_sum _ _ (fun j _ => hu j))

/-- The host sum over axes: every result entry is the initial value plus a finite sum of operand
    entries. -/
theorem allR_reduceAdd {s t u : Shape} {φ : FTy} {axes : List (Fin s.rank)} (x : FVec Ideal s φ)
    (init : u.Idx → Ideal φ) (h : s.ReducesTo axes t) (hu : 0 < u.numel) (hx : AllR x)
    (hi : IsR (init (Shape.Idx.first hu))) : AllR (Host.reduceAdd (F := Ideal) x init h hu) := by
  intro j
  show IsR (init (Shape.Idx.first hu) + ∑ i ∈ Finset.univ.filter (fun i => h.drop i = j), x i)
  exact hi.add (isR_sum _ _ (fun i _ => hx i))

/-- The host sum over axes, with every entry of the initial value real. -/
theorem allR_reduceAdd' {s t u : Shape} {φ : FTy} {axes : List (Fin s.rank)} (x : FVec Ideal s φ)
    (init : u.Idx → Ideal φ) (h : s.ReducesTo axes t) (hu : 0 < u.numel) (hx : AllR x)
    (hi : AllR init) : AllR (Host.reduceAdd (F := Ideal) x init h hu) :=
  allR_reduceAdd x init h hu hx (hi _)

/-- The host contraction: every result entry is a finite sum of products of operand entries. -/
theorem allR_dotGeneral {sl sr so : Shape} {φ₁ φ₂ : FTy} (D : DotDims sl sr so)
    (prec : Option ContractPrecision) (x : FVec Ideal sl φ₁) (w : FVec Ideal sr φ₂)
    (hx : AllR x) (hw : AllR w) : AllR (Host.dotGeneral (F := Ideal) D prec x w) := by
  intro j
  show IsR (FloatOps.dotGeneral D prec .single x w j)
  rw [Ideal.dotGeneral_apply]
  exact isR_sum _ _ (fun k _ => (hx _).mul (hw _))

theorem allR_mulf {S : Shape} {φ : FTy} (x y : FVec Ideal S φ) (hx : AllR x) (hy : AllR y) :
    AllR (mulf (F := Ideal) x y) :=
  fun i => (hx i).mul (hy i)

theorem allR_addf {S : Shape} {φ : FTy} (x y : FVec Ideal S φ) (hx : AllR x) (hy : AllR y) :
    AllR (addf (F := Ideal) x y) :=
  fun i => (hx i).add (hy i)

theorem allR_subf {S : Shape} {φ : FTy} (x y : FVec Ideal S φ) (hx : AllR x) (hy : AllR y) :
    AllR (subf (F := Ideal) x y) :=
  fun i => (hx i).sub (hy i)

theorem allR_negf {S : Shape} {φ : FTy} (x : FVec Ideal S φ) (hx : AllR x) :
    AllR (negf (F := Ideal) x) :=
  fun i => (hx i).neg

/-- A selection between two vectors with real entries has real entries, whatever the mask. -/
theorem allR_select {S : Shape} (c : IVec S 1) (x y : S.Idx → EReal) (hx : AllR x) (hy : AllR y) :
    AllR (select c x y) := by
  intro i
  show IsR (if c i = 1 then x i else y i)
  exact isR_ite (hx i) (hy i)

/-- `broadcast_in_dim` re-indexes its operand. -/
theorem allR_broadcastInDim {s : Shape} (t : Shape) (dims : Fin s.rank → Fin t.rank)
    (h : s.BroadcastsInDim t dims) (x : s.Idx → EReal) (hx : AllR x) :
    AllR (broadcastInDim t dims h x) :=
  fun _ => hx _

/-- A broadcast of a vector along leading axes re-indexes its operand. -/
theorem allR_broadcastTo {s : Shape} (t : Shape) (x : s.Idx → EReal) (h : s.Broadcasts t)
    (hx : AllR x) : AllR (broadcastTo t x h) :=
  fun _ => hx _

/-- A broadcast of a real scalar has real entries. -/
theorem allR_broadcast (t : Shape) (x : EReal) (hx : IsR x) : AllR (broadcast t x) :=
  fun _ => hx

/-- A reshape re-indexes its operand. -/
theorem allR_shapeCast {s : Shape} (t : Shape) (x : s.Idx → EReal) (h : s.ShapeCasts t)
    (hx : AllR x) : AllR (shapeCast t x h) :=
  fun _ => hx _

/-- A slice re-indexes its operand. -/
theorem allR_extractStridedSlice {s : Shape} (t : Shape) (off : Fin s.rank → Nat)
    (x : s.Idx → EReal) (h : s.Slices off t) (hx : AllR x) :
    AllR (extractStridedSlice t off x h) :=
  fun _ => hx _

/-- A strided slice re-indexes its operand. -/
theorem allR_hostSlice {s : Shape} (t : Shape) (start strides : Fin s.rank → Nat)
    (x : s.Idx → EReal) (h : s.SlicesBy start strides t) (hx : AllR x) :
    AllR (Host.slice t start strides x h) :=
  fun _ => hx _

/-- A transposition re-indexes its operand. -/
theorem allR_transpose {s : Shape} (t : Shape) (perm : List (Fin s.rank)) (x : s.Idx → EReal)
    (h : s.Transposes perm t) (hx : AllR x) : AllR (transpose t perm x h) :=
  fun _ => hx _

/-- A concatenation of vectors with real entries has real entries: every result entry is an
    entry of one of the pieces. -/
theorem allR_concatenate_list (t : Shape) (a : Fin t.rank)
    (xs : List ((s : Shape) × (s.Idx → EReal))) (h : Shape.Concatenates (xs.map (·.1)) t a)
    (hxs : ∀ p ∈ xs, AllR p.2) : AllR (concatenate t a xs h) := by
  intro j
  unfold concatenate
  exact hxs _ (List.getElem_mem _) _

/-- A concatenation of two vectors with real entries has real entries. -/
theorem allR_concatenate {s₁ s₂ : Shape} (t : Shape) (a : Fin t.rank) (x₁ : s₁.Idx → EReal)
    (x₂ : s₂.Idx → EReal)
    (h : Shape.Concatenates
      (([⟨s₁, x₁⟩, ⟨s₂, x₂⟩] : List ((s : Shape) × (s.Idx → EReal))).map (·.1)) t a)
    (h₁ : AllR x₁) (h₂ : AllR x₂) :
    AllR (concatenate t a [⟨s₁, x₁⟩, ⟨s₂, x₂⟩] h) := by
  apply allR_concatenate_list
  intro p hp
  simp only [List.mem_cons, List.not_mem_nil, or_false] at hp
  rcases hp with rfl | rfl
  · exact h₁
  · exact h₂

/-- The entrywise host quotient of a vector with real entries by a vector whose entries are
    nonzero real numbers has real entries. -/
theorem allR_hostDivf {S : Shape} {φ : FTy} (x y : FVec Ideal S φ) (hx : AllR x)
    (hy : ∀ i, ∃ r : ℝ, r ≠ 0 ∧ y i = (r : EReal)) : AllR (Host.divf (F := Ideal) x y) := by
  intro i
  obtain ⟨r, hr, hyi⟩ := hy i
  show IsR (Ideal.div (x i) (y i))
  rw [hyi]
  exact isR_div (hx i) hr

/-- The entrywise quotient, likewise. -/
theorem allR_divf {S : Shape} {φ : FTy} (x y : FVec Ideal S φ) (hx : AllR x)
    (hy : ∀ i, ∃ r : ℝ, r ≠ 0 ∧ y i = (r : EReal)) : AllR (divf (F := Ideal) x y) := by
  intro i
  obtain ⟨r, hr, hyi⟩ := hy i
  show IsR (Ideal.div (x i) (y i))
  rw [hyi]
  exact isR_div (hx i) hr

/-- The entrywise host reciprocal square root of a vector whose entries are positive real
    numbers has real entries. -/
theorem allR_hostRsqrt {S : Shape} {φ : FTy} (x : FVec Ideal S φ)
    (hx : ∀ i, ∃ r : ℝ, 0 < r ∧ x i = (r : EReal)) : AllR (Host.rsqrt (F := Ideal) x) := by
  intro i
  obtain ⟨r, hr, hxi⟩ := hx i
  show IsR (Ideal.rsqrt (x i))
  rw [hxi]
  exact isR_rsqrt hr

/-- The entrywise reciprocal square root, likewise. -/
theorem allR_rsqrt {S : Shape} {φ : FTy} (x : FVec Ideal S φ)
    (hx : ∀ i, ∃ r : ℝ, 0 < r ∧ x i = (r : EReal)) : AllR (rsqrt (F := Ideal) x) := by
  intro i
  obtain ⟨r, hr, hxi⟩ := hx i
  show IsR (Ideal.rsqrt (x i))
  rw [hxi]
  exact isR_rsqrt hr

/-- A constant vector whose word denotes a real number has real entries. -/
theorem allR_constant (S : Shape) (φ : FTy) (w : BitVec φ.bits) (h : IsR (Ideal.ofBits φ w)) :
    AllR (constant (F := Ideal) S φ w) :=
  fun _ => h

end Cert.Lib.RealEntries

end
-- ==== Proof.RefValue.lean ====
/-
  The second program's result, read one operation at a time.

  Its last array is the logarithm of the softmax of each graph's two logits; the logits are an affine map of the graphs'
  mean hidden rows; a graph's mean is the sum of its nodes' hidden rows over the larger of its node count and one; a
  node's hidden row is the rectified sum, over the edges into the node, of the edge's weight times the source node's
  transformed features, plus the bias; an edge's weight is the product of the two ends' reciprocal square roots of
  in-degrees. Each of these is read here at an index written by its coordinates, until what is left is the closed formula
  over the argument arrays, the nodes' weights, the graphs' node counts and the four integer columns.

  Also: an edge whose receiver integer is a node number is left alone by the wrap of negative integers; a node's weight
  and a graph's node count are real numbers.
-/
import proofs.«119991_j80178449482414_2_alg».proof.Proof.RefReadPatched
import proofs.«119991_j80178449482414_2_alg».proof.Proof.Formulas
import proofs.«119991_j80178449482414_2_alg».proof.Proof.LibRealEntries

noncomputable section

namespace Cert.ReferenceIdeal.RefValue

open Cert.ReferenceIdeal Cert.ReferenceIdeal.ReadP Idealize.ShloMosaic Idealize.ShloMosaic.ValueIdx Cert.Lib.RealEntries

/-! ## The two wrapped copies of the sources' column are one array -/

theorem sources_once (x1 : (⟨S2x1600000, .i32⟩ : BufTy).Contents (Elt Ideal)) :
    val_main_v20 (F := Ideal) x1 = val_main_v37 (F := Ideal) x1 := by
  unfold val_main_v20 val_main_v37 val_main_v19 val_main_v36 val_main_v16 val_main_v33 val_main_v18 val_main_v35
    val_main_v15 val_main_v32 val_main_v17 val_main_v34 val_main_c val_main_c_6 val_main_c_3 val_main_c_7
  rfl

/-! ## Node counts are real -/

theorem cnts_real (x2 : (⟨S100000, .i32⟩ : BufTy).Contents (Elt Ideal)) : AllR (val_main_v54 (F := Ideal) x2) := by
  unfold val_main_v54
  refine allR_scatterAdd _ _ _ _ ?_ ?_
  · intro i
    rw [val_main_v52_apply, val_main_cst_11_apply]
    exact isR_ofBits_00000000
  · intro i
    rw [val_main_v51_apply, val_main_cst_10_apply]
    exact isR_ofBits_3F800000

/-! ## An edge whose receiver integer is a node number keeps it under the wrap -/

theorem wrapped_of_kept (x1 : (⟨S2x1600000, .i32⟩ : BufTy).Contents (Elt Ideal)) (e : Fin 1700000) (n : Fin 100000)
    (h : (val_main_v42 (F := Ideal) x1 (ix2 e (0 : Fin 1))).toInt = (n.val : Int)) :
    (val_main_v27 (F := Ideal) x1 (ix2 e (0 : Fin 1))).toInt = (n.val : Int) := by
  rw [val_main_v42_apply] at h
  rw [val_main_v27_apply, val_main_v26_apply, val_main_v23_apply, val_main_v22_apply, val_main_c_4_apply]
  have hi : idx_main_v27 (ix2 e (0 : Fin 1)) = idx_main_v42 (ix2 e (0 : Fin 1)) := rfl
  rw [hi]
  generalize val_main_v6 (F := Ideal) x1 (idx_main_v42 (ix2 e (0 : Fin 1))) = b at h ⊢
  generalize val_main_v25 (F := Ideal) x1 (idx_main_v42 (ix2 e (0 : Fin 1))) = b'
  have hs : IntOp.cmpi .slt b 0#32 = 0#1 := by
    have hlt : b.slt 0#32 = false := by
      rw [BitVec.slt_eq_decide, BitVec.toInt_zero, h]
      exact decide_eq_false (by omega)
    show BitVec.ofBool (b.slt 0#32) = 0#1
    rw [hlt]
    rfl
  rw [hs, select_zero]
  exact h

/-! ## Nodes' weights are real -/

/-- An in-degree is zero plus a finite sum of ones. -/
theorem degrees_real (x1 : (⟨S2x1600000, .i32⟩ : BufTy).Contents (Elt Ideal)) : AllR (val_main_v10 (F := Ideal) x1) := by
  unfold val_main_v10
  refine allR_scatterAdd _ _ _ _ ?_ ?_
  · intro i
    rw [val_main_v8_apply, val_main_cst_0_apply]
    exact isR_ofBits_00000000
  · intro i
    rw [val_main_v7_apply, val_main_cst_apply]
    exact isR_ofBits_3F800000

/-- Where a real number is positive, its reciprocal square root; elsewhere zero: a real number either way. -/
theorem isR_guarded_rsqrt (r : ℝ) :
    IsR (Scalar.select (Ideal.cmp .ogt (r : EReal) 0) (Ideal.rsqrt (r : EReal)) 0) := by
  by_cases hpos : (0 : ℝ) < r
  · have hc : Ideal.cmp .ogt (r : EReal) 0 = 1#1 := by simp [Ideal.cmp, hpos]
    rw [hc, select_one]
    exact isR_rsqrt hpos
  · have hc : Ideal.cmp .ogt (r : EReal) 0 = 0#1 := by simp [Ideal.cmp, hpos]
    rw [hc, select_zero]
    exact isR_zero

theorem dinv_real (x1 : (⟨S2x1600000, .i32⟩ : BufTy).Contents (Elt Ideal)) : AllR (val_main_v14 (F := Ideal) x1) := by
  intro i
  rw [val_main_v14_apply, val_main_v12_apply, val_main_v13_apply, val_main_call0_v1_apply, val_main_call0_v0_apply,
    val_main_cst_2_apply, val_main_v11_apply, val_main_cst_1_apply]
  obtain ⟨r, hr⟩ := degrees_real x1 i
  generalize val_main_v10 (F := Ideal) x1 i = d at hr ⊢
  subst hr
  show IsR (Scalar.select (Ideal.cmp .ogt (r : EReal) (Ideal.ofBits .f32 0x00000000#32)) (Ideal.rsqrt (r : EReal))
    (Ideal.ofBits .f32 0x00000000#32))
  rw [Ideal.ofBits_zero_f32]
  exact isR_guarded_rsqrt r

/-! ## The operations that read where integers say, and the row maximum, at an index -/

section
variable (x0 : (⟨S100000x128, .f32⟩ : BufTy).Contents (Elt Ideal)) (x1 : (⟨S2x1600000, .i32⟩ : BufTy).Contents (Elt Ideal))
  (x2 : (⟨S100000, .i32⟩ : BufTy).Contents (Elt Ideal)) (x3 : (⟨S128x64, .f32⟩ : BufTy).Contents (Elt Ideal))
  (x4 : (⟨S64, .f32⟩ : BufTy).Contents (Elt Ideal)) (x5 : (⟨S64x2, .f32⟩ : BufTy).Contents (Elt Ideal))
  (x6 : (⟨S2, .f32⟩ : BufTy).Contents (Elt Ideal))

/-- The source's weight of edge e: the weights' vector at the node the sources' column gives. -/
theorem source_weight_apply (e : Fin 1700000) :
    val_main_v21 (F := Ideal) x1 (ix1 e)
      = val_main_v14 (F := Ideal) x1 (ix1 (Cert.Gcn.nodeOf (val_main_v37 (F := Ideal) x1) e)) := by
  unfold val_main_v21
  rw [sources_once]
  generalize val_main_v14 (F := Ideal) x1 = d
  generalize val_main_v37 (F := Ideal) x1 = idx
  exact Cert.LibGatherRows.gather_vec_apply (N := 100000) (E := 1700000) (by norm_num)
    Facts₀.gather_S100000_S1700000x1_S1700000_n_0_n_n_0_1_1_wf d idx e

/-- The receiver's weight of edge e: the weights' vector at the node the wrapped receivers' column gives. -/
theorem receiver_weight_apply (e : Fin 1700000) :
    val_main_v28 (F := Ideal) x1 (ix1 e)
      = val_main_v14 (F := Ideal) x1 (ix1 (Cert.Gcn.nodeOf (val_main_v27 (F := Ideal) x1) e)) := by
  unfold val_main_v28
  generalize val_main_v14 (F := Ideal) x1 = d
  generalize val_main_v27 (F := Ideal) x1 = idx
  exact Cert.LibGatherRows.gather_vec_apply (N := 100000) (E := 1700000) (by norm_num)
    Facts₀.gather_S100000_S1700000x1_S1700000_n_0_n_n_0_1_1_wf d idx e

/-- A node's transformed feature: the row of the features times the column of the first weights. -/
theorem feat_apply (r : Fin 100000) (h : Fin 64) :
    val_main_v30 (F := Ideal) x0 x3 (ix2 r h) = Cert.Gcn.feat x0 x3 r h := by
  rw [val_main_v30_apply]
  unfold Cert.Gcn.feat
  refine Finset.sum_congr rfl fun k _ => ?_
  have el : lidx_main_v30 (ix2 r h) k = ix2 r k :=
    funext fun a => Fin.ext (by match a with | ⟨0, _⟩ => rfl | ⟨1, _⟩ => rfl)
  have er : ridx_main_v30 (ix2 r h) k = ix2 k h :=
    funext fun a => Fin.ext (by match a with | ⟨0, _⟩ => rfl | ⟨1, _⟩ => rfl)
  rw [el, er]

/-- The source's transformed features of edge e. -/
theorem source_feat_apply (e : Fin 1700000) (h : Fin 64) :
    val_main_v38 (F := Ideal) x0 x1 x3 (ix2 e h)
      = Cert.Gcn.feat x0 x3 (Cert.Gcn.nodeOf (val_main_v37 (F := Ideal) x1) e) h := by
  rw [← feat_apply]
  unfold val_main_v38
  generalize val_main_v30 (F := Ideal) x0 x3 = d
  generalize val_main_v37 (F := Ideal) x1 = idx
  exact Cert.LibGatherRows.gather_rows_apply (N := 100000) (E := 1700000) (F := 64) (by norm_num)
    Facts₀.gather_S100000x64_S1700000x1_S1700000x64_1_0_n_n_0_1_164_wf d idx e h

/-- The sum of the edges' messages into node n: zero's word plus the messages of the edges whose receiver integer is n. -/
theorem aggregate_apply (n : Fin 100000) (h : Fin 64) :
    val_main_v43 (F := Ideal) x0 x1 x3 (ix2 n h)
      = val_main_v41 (F := Ideal) (ix2 n h)
        + ∑ e ∈ Cert.LibRowScatter.rowsOn (N := 100000) (val_main_v42 (F := Ideal) x1) n,
            val_main_v40 (F := Ideal) x0 x1 x3 (ix2 e h) := by
  unfold val_main_v43
  generalize val_main_v41 (F := Ideal) = a
  generalize val_main_v42 (F := Ideal) x1 = idx
  generalize val_main_v40 (F := Ideal) x0 x1 x3 = upd
  exact Cert.LibRowScatter.scatterAdd_rows_apply (N := 100000) (E := 1700000) (F := 64) (φ := .f32)
    Facts₀.scatter_S100000x64_S1700000x1_S1700000x64_1_0_0_1_wf a idx upd n h

/-- The sum of the hidden rows over graph g: zero's word plus the rows of the nodes whose graph integer is g. -/
theorem pool_apply (g : Fin 256) (k : Fin 64) :
    val_main_v50 (F := Ideal) x0 x1 x2 x3 x4 (ix2 g k)
      = val_main_v48 (F := Ideal) (ix2 g k)
        + ∑ n ∈ Cert.LibRowScatter.rowsOn (N := 256) (val_main_v49 (F := Ideal) x2) g,
            val_main_v47 (F := Ideal) x0 x1 x3 x4 (ix2 n k) := by
  unfold val_main_v50
  generalize val_main_v48 (F := Ideal) = a
  generalize val_main_v49 (F := Ideal) x2 = idx
  generalize val_main_v47 (F := Ideal) x0 x1 x3 x4 = upd
  exact Cert.LibRowScatter.scatterAdd_rows_apply (N := 256) (E := 100000) (F := 64) (φ := .f32)
    Facts₀.scatter_S256x64_S100000x1_S100000x64_1_0_0_1_wf a idx upd g k

/-- The largest logit of graph g's row, folded from minus infinity's word. -/
theorem row_max_apply (g : Fin 256) :
    val_main_call2_v0 (F := Ideal) x0 x1 x2 x3 x4 x5 x6 (ix1 g)
      = (Finset.univ : Finset (Fin 2)).fold max (val_main_call2_cst (F := Ideal) (Shape.Idx.first Facts₀.h_S_))
          (fun v => val_main_v63 (F := Ideal) x0 x1 x2 x3 x4 x5 x6 (ix2 g v)) := by
  unfold val_main_call2_v0
  generalize val_main_v63 (F := Ideal) x0 x1 x2 x3 x4 x5 x6 = l
  exact Cert.LibDense.hostRowMax_apply (M := 256) (N := 2) l _ Facts₀.reducesTo_S256x2_S256_d1 (by decide) Facts₀.h_S_ g

/-! ## The stages, each read at an index over the stages before it -/

/-- Edge e's message: the product of its two ends' weights times the source's transformed feature. -/
theorem message_apply (e : Fin 1700000) (h : Fin 64) :
    val_main_v40 (F := Ideal) x0 x1 x3 (ix2 e h)
      = (val_main_v14 (F := Ideal) x1 (ix1 (Cert.Gcn.nodeOf (val_main_v37 (F := Ideal) x1) e))
          * val_main_v14 (F := Ideal) x1 (ix1 (Cert.Gcn.nodeOf (val_main_v27 (F := Ideal) x1) e)))
        * Cert.Gcn.feat x0 x3 (Cert.Gcn.nodeOf (val_main_v37 (F := Ideal) x1) e) h := by
  rw [val_main_v40_apply, val_main_v39_apply, val_main_v31_apply, val_main_v29_apply]
  have hi : idx_main_v31 (idx_main_v39 (ix2 e h)) = ix1 e :=
    funext fun a => Fin.ext (by match a with | ⟨0, _⟩ => rfl)
  rw [hi, source_weight_apply, receiver_weight_apply, source_feat_apply]
  rfl

/-- The hidden layer at (n, h): the messages into n summed from zero's word, plus the bias, rectified. -/
theorem hidden_apply (n : Fin 100000) (h : Fin 64) :
    val_main_v47 (F := Ideal) x0 x1 x3 x4 (ix2 n h)
      = Cert.Gcn.rHid x0 x3 x4 (val_main_v14 (F := Ideal) x1) (val_main_v37 (F := Ideal) x1)
          (val_main_v42 (F := Ideal) x1) (val_main_v27 (F := Ideal) x1) n h := by
  rw [val_main_v47_apply, val_main_v46_apply, val_main_call1_v0_apply, val_main_call1_cst_apply, val_main_v45_apply,
    val_main_v44_apply, aggregate_apply, val_main_v41_apply, val_main_cst_8_apply]
  have hi : idx_main_v44 (idx_main_v45 (ix2 n h)) = ix1 h :=
    funext fun a => Fin.ext (by match a with | ⟨0, _⟩ => rfl)
  rw [hi, Finset.sum_congr rfl fun e _ => message_apply x0 x1 x3 e h]
  rfl

/-- The hidden rows summed over graph g, from zero's word. -/
theorem sums_apply (g : Fin 256) (k : Fin 64) :
    val_main_v50 (F := Ideal) x0 x1 x2 x3 x4 (ix2 g k)
      = Cert.Gcn.gSum (val_main_v49 (F := Ideal) x2)
          (Cert.Gcn.rHid x0 x3 x4 (val_main_v14 (F := Ideal) x1) (val_main_v37 (F := Ideal) x1)
            (val_main_v42 (F := Ideal) x1) (val_main_v27 (F := Ideal) x1)) g k := by
  rw [pool_apply, val_main_v48_apply, val_main_cst_9_apply,
    Finset.sum_congr rfl fun n _ => hidden_apply x0 x1 x3 x4 n k]
  rfl

/-- Graph g's mean: that sum over the larger of the graph's node count and one. -/
theorem mean_apply (g : Fin 256) (k : Fin 64) :
    val_main_v59 (F := Ideal) x0 x1 x2 x3 x4 (ix2 g k)
      = Cert.Gcn.gMean (val_main_v54 (F := Ideal) x2) (val_main_v49 (F := Ideal) x2)
          (Cert.Gcn.rHid x0 x3 x4 (val_main_v14 (F := Ideal) x1) (val_main_v37 (F := Ideal) x1)
            (val_main_v42 (F := Ideal) x1) (val_main_v27 (F := Ideal) x1)) g k := by
  rw [val_main_v59_apply, val_main_v58_apply, val_main_v57_apply, val_main_v56_apply, val_main_v55_apply,
    val_main_cst_12_apply, sums_apply]
  have hi : idx_main_v57 (idx_main_v58 (ix2 g k)) = ix1 g :=
    funext fun a => Fin.ext (by match a with | ⟨0, _⟩ => rfl)
  rw [hi]
  rfl

/-- Graph g's logit u: the mean row times the second weights' column, plus the second bias. -/
theorem logit_apply (g : Fin 256) (u : Fin 2) :
    val_main_v63 (F := Ideal) x0 x1 x2 x3 x4 x5 x6 (ix2 g u)
      = Cert.Gcn.logit x5 x6 (val_main_v54 (F := Ideal) x2) (val_main_v49 (F := Ideal) x2)
          (Cert.Gcn.rHid x0 x3 x4 (val_main_v14 (F := Ideal) x1) (val_main_v37 (F := Ideal) x1)
            (val_main_v42 (F := Ideal) x1) (val_main_v27 (F := Ideal) x1)) g u := by
  rw [val_main_v63_apply, val_main_v60_apply, val_main_v62_apply, val_main_v61_apply]
  have hi : idx_main_v61 (idx_main_v62 (ix2 g u)) = ix1 u :=
    funext fun a => Fin.ext (by match a with | ⟨0, _⟩ => rfl)
  have hs : ∑ k : Fin 64, val_main_v59 (F := Ideal) x0 x1 x2 x3 x4 (lidx_main_v60 (ix2 g u) k) * x5 (ridx_main_v60 (ix2 g u) k)
      = ∑ k : Fin 64, Cert.Gcn.gMean (val_main_v54 (F := Ideal) x2) (val_main_v49 (F := Ideal) x2)
          (Cert.Gcn.rHid x0 x3 x4 (val_main_v14 (F := Ideal) x1) (val_main_v37 (F := Ideal) x1)
            (val_main_v42 (F := Ideal) x1) (val_main_v27 (F := Ideal) x1)) g k * x5 (ix2 k u) := by
    refine Finset.sum_congr rfl fun k _ => ?_
    have el : lidx_main_v60 (ix2 g u) k = ix2 g k :=
      funext fun a => Fin.ext (by match a with | ⟨0, _⟩ => rfl | ⟨1, _⟩ => rfl)
    have er : ridx_main_v60 (ix2 g u) k = ix2 k u :=
      funext fun a => Fin.ext (by match a with | ⟨0, _⟩ => rfl | ⟨1, _⟩ => rfl)
    rw [el, er, mean_apply]
  rw [hi, hs]
  rfl

/-- The row's largest logit, against minus infinity's word once more. -/
theorem top_apply (g : Fin 256) :
    val_main_call2_v2 (F := Ideal) x0 x1 x2 x3 x4 x5 x6 (ix1 g)
      = max Cert.Gcn.negInfW ((Finset.univ : Finset (Fin 2)).fold max Cert.Gcn.negInfW
          (fun v => val_main_v63 (F := Ideal) x0 x1 x2 x3 x4 x5 x6 (ix2 g v))) := by
  rw [val_main_call2_v2_apply, val_main_call2_v1_apply, val_main_call2_cst_0_apply, row_max_apply,
    val_main_call2_cst_apply]
  rfl

/-- A logit less its row's largest. -/
theorem shifted_apply (g : Fin 256) (u : Fin 2) :
    val_main_call2_v5 (F := Ideal) x0 x1 x2 x3 x4 x5 x6 (ix2 g u)
      = val_main_v63 (F := Ideal) x0 x1 x2 x3 x4 x5 x6 (ix2 g u)
        - max Cert.Gcn.negInfW ((Finset.univ : Finset (Fin 2)).fold max Cert.Gcn.negInfW
            (fun v => val_main_v63 (F := Ideal) x0 x1 x2 x3 x4 x5 x6 (ix2 g v))) := by
  rw [val_main_call2_v5_apply, val_main_call2_v4_apply, val_main_call2_v3_apply]
  have hi : idx_main_call2_v3 (idx_main_call2_v4 (ix2 g u)) = ix1 g :=
    funext fun a => Fin.ext (by match a with | ⟨0, _⟩ => rfl)
  rw [hi, top_apply]
  rfl

/-- The last array at (g, u): the shifted logit less the logarithm of the sum, from zero's word, of the row's
    exponentiated shifted logits. -/
theorem result_apply (g : Fin 256) (u : Fin 2) :
    val_main_v64 (F := Ideal) x0 x1 x2 x3 x4 x5 x6 (ix2 g u)
      = Cert.Gcn.rLogSoftmax (fun v => val_main_v63 (F := Ideal) x0 x1 x2 x3 x4 x5 x6 (ix2 g v)) u := by
  rw [val_main_v64_apply, val_main_call2_v10_apply, val_main_call2_v9_apply, val_main_call2_v8_apply,
    val_main_call2_v7_apply, val_main_call2_cst_1_apply]
  have hi : idx_main_call2_v8 (idx_main_call2_v10 (ix2 g u)) = ix1 g :=
    funext fun a => Fin.ext (by match a with | ⟨0, _⟩ => rfl)
  have hs : ∑ k : Fin 2, val_main_call2_v6 (F := Ideal) x0 x1 x2 x3 x4 x5 x6 (idx_main_call2_v7 (ix1 g) k)
      = ∑ k : Fin 2, Ideal.exp (val_main_v63 (F := Ideal) x0 x1 x2 x3 x4 x5 x6 (ix2 g k)
          - max Cert.Gcn.negInfW ((Finset.univ : Finset (Fin 2)).fold max Cert.Gcn.negInfW
              (fun v => val_main_v63 (F := Ideal) x0 x1 x2 x3 x4 x5 x6 (ix2 g v)))) := by
    refine Finset.sum_congr rfl fun k _ => ?_
    have ek : idx_main_call2_v7 (ix1 g) k = ix2 g k :=
      funext fun a => Fin.ext (by match a with | ⟨0, _⟩ => rfl | ⟨1, _⟩ => rfl)
    rw [ek, val_main_call2_v6_apply, shifted_apply, Ideal.hostUnary_exp_def]
  rw [hi, hs, shifted_apply, Ideal.hostUnary_log_def, Ideal.subf_def, Ideal.ofBits_def]
  unfold Cert.Gcn.rLogSoftmax
  rfl

end

/-! ## The second program's result is the closed formula -/

theorem ref_value (x0 : (⟨S100000x128, .f32⟩ : BufTy).Contents (Elt Ideal)) (x1 : (⟨S2x1600000, .i32⟩ : BufTy).Contents (Elt Ideal))
    (x2 : (⟨S100000, .i32⟩ : BufTy).Contents (Elt Ideal)) (x3 : (⟨S128x64, .f32⟩ : BufTy).Contents (Elt Ideal))
    (x4 : (⟨S64, .f32⟩ : BufTy).Contents (Elt Ideal)) (x5 : (⟨S64x2, .f32⟩ : BufTy).Contents (Elt Ideal))
    (x6 : (⟨S2, .f32⟩ : BufTy).Contents (Elt Ideal)) :
    val_main_v64 (F := Ideal) x0 x1 x2 x3 x4 x5 x6
      = Cert.Gcn.RefG x0 x3 x4 x5 x6 (val_main_v14 (F := Ideal) x1) (val_main_v54 (F := Ideal) x2)
          (val_main_v37 (F := Ideal) x1) (val_main_v42 (F := Ideal) x1) (val_main_v27 (F := Ideal) x1)
          (val_main_v49 (F := Ideal) x2) := by
  funext i
  obtain ⟨g, u, rfl⟩ : ∃ (g : Fin 256) (u : Fin 2), i = ix2 g u := ⟨i 0, i 1, eq_ix2 i⟩
  rw [Cert.Gcn.RefG_apply, result_apply]
  exact congrArg (fun l => Cert.Gcn.rLogSoftmax l u) (funext fun v => logit_apply x0 x1 x2 x3 x4 x5 x6 g v)

end Cert.ReferenceIdeal.RefValue

end
-- ==== Proof.Bridge.lean ====
/-
  The two closed formulas agree when every entry of the float inputs is a real number.

  Three facts carry it. First, an edge into node n has n as its receiver in both receiver columns, so the weight the
  second formula reads for the receiving end is node n's own. Second, over the reals a sum of terms a_e · d_e scaled
  by a common factor c is the sum of the terms (d_e · c) · a_e; hence the two hidden layers are the same function, and
  with them the graphs' sums, means and logits. Third, a graph's two logits are real numbers, and on a row of reals
  the two spellings of the logarithm of the softmax agree: the row's largest entry m is real, the larger of minus
  infinity and m is m, zero plus a sum is the sum, and a − (m + L) = (a − m) − L for real a and m whatever L is.
-/
import proofs.«119991_j80178449482414_2_alg».proof.Proof.Formulas
import proofs.«119991_j80178449482414_2_alg».proof.Proof.LibRealEntries

noncomputable section

namespace Cert.Gcn

open Idealize.ShloMosaic Idealize.ShloMosaic.ValueIdx Cert.Lib.RealEntries

/-! ### The three words -/

/-- The word of 0.0 is zero. -/
theorem zeroW_eq : zeroW = 0 := Ideal.ofBits_zero_f32

/-- The word of 1.0 is one. -/
theorem oneW_eq : oneW = 1 := ofBits_3F800000

/-- The word of minus infinity is the least extended real. -/
theorem negInfW_eq : negInfW = ⊥ := by
  simp [Ideal.ofBits, Ideal.ieee]

/-! ### Real values -/

/-- The larger of two real values is real. -/
theorem IsR.max {a b : EReal} (ha : IsR a) (hb : IsR b) : IsR (max a b) := by
  rcases max_choice a b with h | h
  · rw [h]; exact ha
  · rw [h]; exact hb

/-! ### An edge into n has receiver n in both columns -/

section
variable (x : (⟨2, ![100000, 128]⟩ : Shape).Idx → EReal) (w1 : (⟨2, ![128, 64]⟩ : Shape).Idx → EReal)
  (b1 : (⟨1, ![64]⟩ : Shape).Idx → EReal) (wfc : (⟨2, ![64, 2]⟩ : Shape).Idx → EReal)
  (bfc : (⟨1, ![2]⟩ : Shape).Idx → EReal)
  (dinv : (⟨1, ![100000]⟩ : Shape).Idx → EReal) (cnts : (⟨1, ![256]⟩ : Shape).Idx → EReal)
  (ridx cidx cidxw : IVec ⟨2, ![1700000, 1]⟩ 32) (bidx : IVec ⟨2, ![100000, 1]⟩ 32)

/-- For an edge into node n, the node the second receiver column gives is n. -/
theorem nodeOf_of_mem_edgesInto
    (hcw : ∀ (e : Fin 1700000) (n : Fin 100000), (cidx (ix2 e (0 : Fin 1))).toInt = (n.val : Int) →
      (cidxw (ix2 e (0 : Fin 1))).toInt = (n.val : Int))
    (n : Fin 100000) (e : Fin 1700000) (he : e ∈ edgesInto cidx n) : nodeOf cidxw e = n := by
  have h : (cidx (ix2 e (0 : Fin 1))).toInt = (n.val : Int) := (Finset.mem_filter.mp he).2
  exact Cert.LibGatherRows.rowOf_of_toInt _ cidxw e n (hcw e n h)

/-! ### The regrouping of a scaled sum, over the reals -/

/-- (0 + Σ a_e · d_e) · c = 0 + Σ (d_e · c) · a_e when every a_e, d_e and c is real. -/
theorem scaled_sum_regroup {ι : Type*} (s : Finset ι) (a d : ι → EReal) (c : EReal)
    (ha : ∀ e, IsR (a e)) (hd : ∀ e, IsR (d e)) (hc : IsR c) :
    (0 + ∑ e ∈ s, a e * d e) * c = 0 + ∑ e ∈ s, (d e * c) * a e := by
  choose ra hra using ha
  choose rd hrd using hd
  obtain ⟨rc, rfl⟩ := hc
  rw [zero_add, zero_add]
  have h1 : ∀ e, a e * d e = ((ra e * rd e : ℝ) : EReal) := fun e => by rw [hra, hrd, EReal.coe_mul]
  have h2 : ∀ e, (d e * (rc : EReal)) * a e = ((ra e * rd e : ℝ) : EReal) * (rc : EReal) := fun e => by
    rw [hra, hrd, ← EReal.coe_mul, ← EReal.coe_mul, ← EReal.coe_mul]
    congr 1
    ring
  simp only [h1, h2]
  exact Cert.LibRowScatter.sum_mul_real s (fun e => ra e * rd e) rc

/-- A node's transformed feature is real. -/
theorem isR_feat (hx : AllR x) (hw : AllR w1) (r : Fin 100000) (h : Fin 64) : IsR (feat x w1 r h) :=
  isR_sum _ _ (fun k _ => (hx _).mul (hw _))

/-- The first formula's sum, scaled by the receiver's weight, is the second formula's sum. -/
theorem kAgg_mul_eq_rAgg (hx : AllR x) (hw : AllR w1) (hd : AllR dinv)
    (hcw : ∀ (e : Fin 1700000) (n : Fin 100000), (cidx (ix2 e (0 : Fin 1))).toInt = (n.val : Int) →
      (cidxw (ix2 e (0 : Fin 1))).toInt = (n.val : Int))
    (n : Fin 100000) (h : Fin 64) :
    kAgg x w1 dinv ridx cidx n h * dinv (ix1 n) = rAgg x w1 dinv ridx cidx cidxw n h := by
  unfold kAgg rAgg
  rw [zeroW_eq]
  refine (scaled_sum_regroup (edgesInto cidx n) (fun e => feat x w1 (nodeOf ridx e) h)
    (fun e => dinv (ix1 (nodeOf ridx e))) (dinv (ix1 n)) (fun e => isR_feat x w1 hx hw _ _) (fun e => hd _)
    (hd _)).trans ?_
  refine congrArg (fun t => (0 : EReal) + t) ?_
  refine Finset.sum_congr rfl fun e he => ?_
  rw [nodeOf_of_mem_edgesInto cidx cidxw hcw n e he]

/-- THE TWO HIDDEN LAYERS ARE THE SAME FUNCTION. -/
theorem kHid_eq_rHid (hx : AllR x) (hw : AllR w1) (hd : AllR dinv)
    (hcw : ∀ (e : Fin 1700000) (n : Fin 100000), (cidx (ix2 e (0 : Fin 1))).toInt = (n.val : Int) →
      (cidxw (ix2 e (0 : Fin 1))).toInt = (n.val : Int)) :
    kHid x w1 b1 dinv ridx cidx = rHid x w1 b1 dinv ridx cidx cidxw := by
  funext n h
  unfold kHid rHid
  rw [kAgg_mul_eq_rAgg x w1 dinv ridx cidx cidxw hx hw hd hcw n h]

/-! ### The logits are real -/

/-- The first hidden layer's entries are real. -/
theorem isR_kHid (hx : AllR x) (hw : AllR w1) (hb : AllR b1) (hd : AllR dinv) (n : Fin 100000) (h : Fin 64) :
    IsR (kHid x w1 b1 dinv ridx cidx n h) := by
  unfold kHid kAgg
  exact IsR.max (((isR_ofBits_00000000.add
    (isR_sum _ _ fun e _ => (isR_feat x w1 hx hw _ _).mul (hd _))).mul (hd _)).add (hb _)) isR_ofBits_00000000

/-- A graph's mean of a real hidden layer is real: its sum is real, and its divisor, the larger of the node count and
    one, is a real number that is at least one. -/
theorem isR_gMean (hc : AllR cnts) (hid : Fin 100000 → Fin 64 → EReal) (hh : ∀ n k, IsR (hid n k))
    (g : Fin 256) (k : Fin 64) : IsR (gMean cnts bidx hid g k) := by
  unfold gMean gSum
  obtain ⟨c, hc'⟩ := hc (ix1 g)
  have hm : max (c : EReal) ((1 : ℝ) : EReal) = ((max c 1 : ℝ) : EReal) :=
    (EReal.coe_strictMono.monotone.map_max).symm
  rw [hc', oneW_eq, ← EReal.coe_one, hm]
  refine isR_div (isR_ofBits_00000000.add (isR_sum _ _ fun n _ => hh n k)) ?_
  have h1 : (1 : ℝ) ≤ max c 1 := le_max_right _ _
  exact ne_of_gt (lt_of_lt_of_le one_pos h1)

/-- A graph's logits of a real hidden layer are real. -/
theorem isR_logit (hwf : AllR wfc) (hbf : AllR bfc) (hc : AllR cnts) (hid : Fin 100000 → Fin 64 → EReal)
    (hh : ∀ n k, IsR (hid n k)) (g : Fin 256) (u : Fin 2) : IsR (logit wfc bfc cnts bidx hid g u) := by
  unfold logit
  exact (isR_sum _ _ fun k _ => (isR_gMean cnts bidx hc hid hh g k).mul (hwf _)).add (hbf _)

end

/-! ### The two spellings of the logarithm of the softmax, on a row of reals -/

/-- a − (m + L) = (a − m) − L for real a and m and every extended real L: at L = ⊥ both sides are ⊤, at L = ⊤ both
    are ⊥, and on the reals it is the reals' law. -/
theorem sub_add_eq_sub_sub_of_real (a m : ℝ) (L : EReal) :
    (a : EReal) - ((m : EReal) + L) = ((a : EReal) - (m : EReal)) - L := by
  induction L using EReal.rec with
  | bot => rw [EReal.add_bot, EReal.coe_sub_bot, ← EReal.coe_sub, EReal.coe_sub_bot]
  | coe r =>
    rw [← EReal.coe_add, ← EReal.coe_sub, ← EReal.coe_sub, ← EReal.coe_sub]
    congr 1
    ring
  | top => rw [EReal.coe_add_top, EReal.sub_top, EReal.sub_top]

/-- The fold of the maximum from ⊥ over a row of two entries is the larger of the two. -/
theorem fold_max_row (l : Fin 2 → EReal) :
    (Finset.univ : Finset (Fin 2)).fold max ⊥ l = max (l 0) (l 1) := by
  rw [Finset.univ_fin2, Finset.fold_insert (by decide), Finset.fold_singleton, max_eq_left bot_le]

/-- ON A ROW OF REALS THE TWO SPELLINGS AGREE. -/
theorem kLogSoftmax_eq_rLogSoftmax (l : Fin 2 → EReal) (hl : ∀ v, IsR (l v)) (u : Fin 2) :
    kLogSoftmax l u = rLogSoftmax l u := by
  unfold kLogSoftmax rLogSoftmax
  rw [negInfW_eq, zeroW_eq, fold_max_row]
  obtain ⟨m, hm⟩ := IsR.max (hl 0) (hl 1)
  obtain ⟨a, ha⟩ := hl u
  rw [hm, max_eq_right bot_le, zero_add, ha]
  exact sub_add_eq_sub_sub_of_real a m _

/-! ### The two results agree -/

theorem KerG_eq_RefG
    (x : (⟨2, ![100000, 128]⟩ : Shape).Idx → EReal) (w1 : (⟨2, ![128, 64]⟩ : Shape).Idx → EReal) (b1 : (⟨1, ![64]⟩ : Shape).Idx → EReal)
    (wfc : (⟨2, ![64, 2]⟩ : Shape).Idx → EReal) (bfc : (⟨1, ![2]⟩ : Shape).Idx → EReal)
    (dinv : (⟨1, ![100000]⟩ : Shape).Idx → EReal) (cnts : (⟨1, ![256]⟩ : Shape).Idx → EReal)
    (ridx cidx cidxw : IVec ⟨2, ![1700000, 1]⟩ 32) (bidx : IVec ⟨2, ![100000, 1]⟩ 32)
    (hx : AllR x) (hw : AllR w1) (hb : AllR b1) (hwf : AllR wfc) (hbf : AllR bfc) (hd : AllR dinv) (hc : AllR cnts)
    (hcw : ∀ (e : Fin 1700000) (n : Fin 100000), (cidx (ix2 e (0 : Fin 1))).toInt = (n.val : Int) → (cidxw (ix2 e (0 : Fin 1))).toInt = (n.val : Int)) :
    KerG x w1 b1 wfc bfc dinv cnts ridx cidx bidx = RefG x w1 b1 wfc bfc dinv cnts ridx cidx cidxw bidx := by
  funext i
  obtain ⟨g, u, rfl⟩ : ∃ (g : Fin 256) (u : Fin 2), i = ix2 g u := ⟨i 0, i 1, eq_ix2 i⟩
  rw [KerG_apply, RefG_apply, ← kHid_eq_rHid x w1 b1 dinv ridx cidx cidxw hx hw hd hcw]
  exact kLogSoftmax_eq_rLogSoftmax _
    (fun v => isR_logit wfc bfc cnts bidx hwf hbf hc _ (isR_kHid x w1 b1 dinv ridx cidx hx hw hb hd) g v) u

end Cert.Gcn

end
-- ==== Proof.FiniteInputs.lean ====
/-
  What the precondition says of the float inputs: every entry is a real number.

  The precondition is the conjunction, over the five float inputs, of "every entry's absolute value is below plus
  infinity", each conjunct a conjunction over the array's entries that starts from the true bit. A conjunction of
  bits that is the true bit has every bit true; an entry x with max x (−x) < ⊤ is neither ⊤ nor ⊥, so it is real.
-/
import proofs.«119991_j80178449482414_2_alg».proof.Pre_finite_inputs
import proofs.«119991_j80178449482414_2_alg».proof.Proof.Gen.Pre_finite_inputs
import proofs.«119991_j80178449482414_2_alg».proof.Proof.LibRealEntries
import Idealize.ShloMosaic.Lib.ReduceAll
import Idealize.ShloMosaic.Lib.ValueIdx

noncomputable section

namespace Cert.Gcn.Finite

open Idealize.ShloMosaic Idealize.ShloMosaic.ValueIdx Cert.Lib.RealEntries Cert.Pre_finite_inputs

/-- The shape with no axes has one index. -/
instance subsingleton_scalarIdx : Subsingleton S_.Idx := ⟨fun a b => funext fun d => d.elim0⟩

/-- The f32 word 0x7F800000 is plus infinity. -/
theorem posInfW_eq : Ideal.ofBits .f32 0x7F800000#32 = ⊤ := by
  simp [Ideal.ofBits, Ideal.ieee]

/-- An extended real whose absolute value max x (−x) is below ⊤ is real: at ⊤ the maximum is ⊤, at ⊥ the negation
    is ⊤. -/
theorem isR_of_abs_lt_top (x : EReal) (h : max x (-x) < ⊤) : IsR x := by
  induction x using EReal.rec with
  | bot => exact absurd h (by simp)
  | coe r => exact isR_coe r
  | top => exact absurd h (by simp)

/-- A bit made from a truth value is the true bit exactly when the value is true. -/
theorem ofBool_eq_one (b : Bool) : BitVec.ofBool b = 1#1 ↔ b = true := by cases b <;> decide

/-- ONE ARRAY: if the conjunction over all entries of "|entry| < +inf" is the true bit, every entry is real. -/
theorem allR_of_all_abs_lt {S : Shape} {axes : List (Fin S.rank)} (a : FVec Ideal S .f32)
    (dims : Fin S_.rank → Fin S.rank) (hb : S_.BroadcastsInDim S dims) (hr : S.ReducesTo axes S_)
    (hu : 0 < S_.numel) (init : IVec S_ 1)
    (e : Host.reduce IntOp.andi
      (cmpf .olt (Host.absf a) (broadcastInDim S dims hb (constant (F := Ideal) S_ .f32 0x7F800000#32)))
      init hr hu ix0 = 1#1) : AllR a := by
  intro i
  have hi := Host.reduce_andi_all _ init hr hu ix0 e i
  have hi' : BitVec.ofBool (decide (max (a i) (-(a i)) < Ideal.ofBits .f32 0x7F800000#32)) = 1#1 := hi
  rw [ofBool_eq_one, decide_eq_true_eq, posInfW_eq] at hi'
  exact isR_of_abs_lt_top (a i) hi'

/-- A conjunction of two bit arrays without axes that is the true bit at the one index has both bits true there. -/
theorem and_scalar (x y : IVec S_ 1) (h : andi x y ix0 = 1#1) : x ix0 = 1#1 ∧ y ix0 = 1#1 :=
  IntOp.andi_eq_one.1 h

/-- THE PRECONDITION DECODED: if it holds, every entry of each of the five float inputs is real. -/
theorem allR_of_pre (a0 : FVec Ideal S100000x128 .f32) (a1 : IVec S2x1600000 32) (a2 : IVec S100000 32)
    (a3 : FVec Ideal S128x64 .f32) (a4 : FVec Ideal S64 .f32) (a5 : FVec Ideal S64x2 .f32)
    (a6 : FVec Ideal S2 .f32)
    (h : Cert.Pre_finite_inputs.fn (F := Ideal) a0 a1 a2 a3 a4 a5 a6 = fun _ => 1#1) :
    AllR a0 ∧ AllR a3 ∧ AllR a4 ∧ AllR a5 ∧ AllR a6 := by
  have e := congrFun h ix0
  dsimp only [fn, fn_part1] at e
  obtain ⟨e0345, e6⟩ := and_scalar _ _ e
  obtain ⟨e034, e5⟩ := and_scalar _ _ e0345
  obtain ⟨e03, e4⟩ := and_scalar _ _ e034
  obtain ⟨e0, e3⟩ := and_scalar _ _ e03
  exact ⟨allR_of_all_abs_lt a0 _ _ _ _ _ e0, allR_of_all_abs_lt a3 _ _ _ _ _ e3,
    allR_of_all_abs_lt a4 _ _ _ _ _ e4, allR_of_all_abs_lt a5 _ _ _ _ _ e5,
    allR_of_all_abs_lt a6 _ _ _ _ _ e6⟩

end Cert.Gcn.Finite

end
-- ==== Proof.Shared.lean ====
/-
  The two programs begin alike, and end at the same array.

  Both form the edges' sources and receivers, the in-degrees, the nodes' weights, the wrapped sources' column, the
  receivers' column, the graphs' column and the graphs' node counts by the same operations on the same argument
  arrays: those arrays are equal. With the float arguments real — which is what the precondition says — the nodes'
  weights and node counts real, and a kept edge's wrapped receiver integer equal to its receiver integer, the two
  closed formulas agree; so the second program's last array is the first program's result term.
-/
import proofs.«119991_j80178449482414_2_alg».proof.Proof.KernelValue
import proofs.«119991_j80178449482414_2_alg».proof.Proof.RefValue
import proofs.«119991_j80178449482414_2_alg».proof.Proof.Bridge
import proofs.«119991_j80178449482414_2_alg».proof.Proof.FiniteInputs

set_option maxRecDepth 16384

noncomputable section

namespace Cert.Shared

open Cert.KernelIdeal.Fold Cert.ReferenceIdeal.ReadP Idealize.ShloMosaic

variable (x1 : IVec Cert.KernelIdeal.S2x1600000 32) (x2 : IVec Cert.KernelIdeal.S100000 32)

theorem rows_eq : rowA x1 = val_main_v3 (F := Ideal) x1 := by
  unfold rowA val_main_v3 val_main_v2 val_main_v1 val_main_v0
  rfl

theorem cols_eq : colA x1 = val_main_v6 (F := Ideal) x1 := by
  unfold colA val_main_v6 val_main_v5 val_main_v4 val_main_v0
  rfl

theorem cidx_eq : cidxA x1 = val_main_v42 (F := Ideal) x1 := by
  unfold cidxA val_main_v42
  rw [cols_eq]

theorem ridx_eq : ridxA x1 = val_main_v37 (F := Ideal) x1 := by
  unfold ridxA val_main_v37 val_main_v36 val_main_v33 val_main_v35 val_main_v32 val_main_v34 val_main_c_6 val_main_c_7
  rw [rows_eq]

theorem deg_eq : degA x1 = val_main_v10 (F := Ideal) x1 := by
  unfold degA val_main_v10 val_main_v8 val_main_v9 val_main_v7 val_main_cst_0 val_main_cst cidxA
  rw [cols_eq]
  rfl

theorem dinv_eq : dinvA x1 = val_main_v14 (F := Ideal) x1 := by
  unfold dinvA val_main_v14 val_main_v12 val_main_v13 val_main_call0_v1 val_main_call0_v0 val_main_cst_2 val_main_v11
    val_main_cst_1
  rw [deg_eq]

theorem bidx_eq : bidxA x2 = val_main_v49 (F := Ideal) x2 := by
  unfold bidxA val_main_v49
  rfl

theorem cnt_eq : cntA x2 = val_main_v54 (F := Ideal) x2 := by
  unfold cntA val_main_v54 val_main_v52 val_main_v53 val_main_v51 val_main_cst_11 val_main_cst_10 bidxA
  rfl

/-- THE TWO RESULTS AGREE on argument arrays of which the precondition holds. -/
theorem value_eq (x0 : FVec Ideal Cert.KernelIdeal.S100000x128 .f32) (x3 : FVec Ideal Cert.KernelIdeal.S128x64 .f32)
    (x4 : FVec Ideal Cert.KernelIdeal.S64 .f32) (x5 : FVec Ideal Cert.KernelIdeal.S64x2 .f32)
    (x6 : FVec Ideal Cert.KernelIdeal.S2 .f32)
    (hpre : Cert.Pre_finite_inputs.fn (F := Ideal) x0 x1 x2 x3 x4 x5 x6 = fun _ => 1#1) :
    val_main_v64 (F := Ideal) x0 x1 x2 x3 x4 x5 x6 = resA x0 x1 x2 x3 x4 x5 x6 := by
  obtain ⟨h0, h3, h4, h5, h6⟩ := Cert.Gcn.Finite.allR_of_pre x0 x1 x2 x3 x4 x5 x6 hpre
  rw [Cert.ReferenceIdeal.RefValue.ref_value, Cert.KernelIdeal.KernelValue.resA_eq_KerG,
    dinv_eq, cnt_eq, ridx_eq, cidx_eq, bidx_eq]
  exact (Cert.Gcn.KerG_eq_RefG x0 x3 x4 x5 x6 _ _ _ _ _ _ h0 h3 h4 h5 h6
    (Cert.ReferenceIdeal.RefValue.dinv_real x1) (Cert.ReferenceIdeal.RefValue.cnts_real x2)
    (Cert.ReferenceIdeal.RefValue.wrapped_of_kept x1)).symm

end Cert.Shared

end
-- ==== Proof.lean ====
/-
  A graph-convolution layer with global mean pooling and a two-class log-softmax head, computed two ways, gives the
  same array at exact arithmetic on finite inputs.

  One program scales every node's transformed features by the node's weight (the reciprocal square root of its
  in-degree) inside the matrix product's launch, sums the sources' rows into the receivers, and scales by the
  receiver's weight together with the bias and the rectifier in a second launch; the other weighs every edge's message
  by the product of the two ends' weights before the sum. For a fixed receiver n the receiver's weight is a common
  factor of all the edges into n, and a finite sum of real numbers distributes over it; this needs every entry real,
  which is what the precondition gives of the float inputs and what the degrees' construction gives of the weights.
  A third launch takes the logarithm of each graph's softmax as l − (m + log Σ exp(l − m)) where the other program
  takes (l − m) − log Σ exp(l − m), equal for real l and m.

  Each program's run is read to one term of its argument arrays (Proof/Fold.lean for the three launches and the host
  operations between them, the reference's run for the other), each term is read entry by entry to a closed formula
  (Proof/KernelValue.lean, Proof/RefValue.lean over Proof/Formulas.lean), and the formulas agree (Proof/Bridge.lean,
  Proof/FiniteInputs.lean, Proof/Shared.lean). The three frames are the runs with the result dropped; nothing was
  rewritten between the program and its idealization, so that claim holds trivially.
-/
import proofs.«119991_j80178449482414_2_alg».proof.Defs
import proofs.«119991_j80178449482414_2_alg».proof.Proof.Gen.Kernel
import proofs.«119991_j80178449482414_2_alg».proof.Proof.Gen.Kernel.Frame
import proofs.«119991_j80178449482414_2_alg».proof.Proof.Gen.KernelIdeal
import proofs.«119991_j80178449482414_2_alg».proof.Proof.Gen.KernelIdeal.Frame
import proofs.«119991_j80178449482414_2_alg».proof.Proof.Gen.ReferenceIdeal
import proofs.«119991_j80178449482414_2_alg».proof.Proof.Gen.Pre_finite_inputs
import proofs.«119991_j80178449482414_2_alg».proof.Proof.RefRunPatched
import proofs.«119991_j80178449482414_2_alg».proof.Proof.ResultRun
import proofs.«119991_j80178449482414_2_alg».proof.Proof.Fold
import proofs.«119991_j80178449482414_2_alg».proof.Proof.Shared
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories agreeing on the arguments both programs end, the first with its result array at the result term of
    its arguments and the second with its last array at the same term. -/
theorem algebraic : Cert.algebraic_KernelIdeal_ReferenceIdeal := by
  intro m ρ m' ρ' hpre hagree
  refine ⟨fun c => Cert.KernelIdeal.Fold.resA
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Fold.result_eq m ρ c), (h c).2⟩)
      (Cert.KernelIdeal.ResultRun.run m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6⟩ := hagree c
    rw [Cert.ReferenceIdeal.ReadP.val_main_v64_eq, e0, e1, e2, e3, e4, e5, e6]
    exact Cert.Shared.value_eq _ _ _ _ _ _ _ (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
